-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1x64 : Shape := ⟨2, ![1, 64]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩

abbrev nBuf : Space → Nat
  | .hbm => 86
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S1x64, .f32⟩
  | .hbm, ⟨48, _⟩ => ⟨S1x64, .f32⟩
  | .hbm, ⟨49, _⟩ => ⟨S1x64, .f32⟩
  | .hbm, ⟨50, _⟩ => ⟨S100000x64, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x1, .f32⟩
  | .hbm, ⟨61, _⟩ => ⟨S1700000x64, .f32⟩
  | .hbm, ⟨62, _⟩ => ⟨S1700000x64, .f32⟩
  | .hbm, ⟨63, _⟩ => ⟨S_, .f32⟩
  | .hbm, ⟨64, _⟩ => ⟨S100000x64, .f32⟩
  | .hbm, ⟨65, _⟩ => ⟨S1700000x1, .i32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x64, .f32⟩
  | .hbm, ⟨78, _⟩ => ⟨S1700000x1, .f32⟩
  | .hbm, ⟨79, _⟩ => ⟨S1700000x64, .f32⟩
  | .hbm, ⟨80, _⟩ => ⟨S1700000x64, .f32⟩
  | .hbm, ⟨81, _⟩ => ⟨S_, .f32⟩
  | .hbm, ⟨82, _⟩ => ⟨S100000x64, .f32⟩
  | .hbm, ⟨83, _⟩ => ⟨S1700000x1, .i32⟩
  | .hbm, ⟨84, _⟩ => ⟨S100000x64, .f32⟩
  | .hbm, ⟨85, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S1x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S1x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v47) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v32) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 101
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x64, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x1, .f32⟩
  | .hbm, ⟨58, _⟩ => ⟨S1700000x64, .f32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | .hbm, ⟨67, _⟩ => ⟨S_, .f32⟩
  | .hbm, ⟨68, _⟩ => ⟨S100000x64, .f32⟩
  | .hbm, ⟨69, _⟩ => ⟨S100000x64, .i1⟩
  | .hbm, ⟨70, _⟩ => ⟨S1x64, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x64, .f32⟩
  | .hbm, ⟨84, _⟩ => ⟨S1700000x1, .f32⟩
  | .hbm, ⟨85, _⟩ => ⟨S1700000x64, .f32⟩
  | .hbm, ⟨86, _⟩ => ⟨S1700000x64, .f32⟩
  | .hbm, ⟨87, _⟩ => ⟨S_, .f32⟩
  | .hbm, ⟨88, _⟩ => ⟨S100000x64, .f32⟩
  | .hbm, ⟨89, _⟩ => ⟨S1700000x1, .i32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S100000x64, .f32⟩
  | .hbm, ⟨96, _⟩ => ⟨S100000x64, .i1⟩
  | .hbm, ⟨97, _⟩ => ⟨S1x64, .f32⟩
  | .hbm, ⟨98, _⟩ => ⟨S100000x64, .f32⟩
  | .hbm, ⟨99, _⟩ => ⟨S100000x64, .f32⟩
  | .hbm, ⟨100, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_10 : Ref sig .tc := ⟨.hbm, 75, rfl⟩
abbrev main_v54 : Ref sig .tc := ⟨.hbm, 76, rfl⟩
abbrev main_v55 : Ref sig .tc := ⟨.hbm, 77, rfl⟩
abbrev main_c_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_13 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KRun.lean ====
/-
  The kernel program's run with its result named.

  The program is nine segments: three stretches of array operations, the first dense product, the first aggregation,
  the first bias-and-rectifier, the second dense product, the second aggregation, the second bias-and-rectifier. Every
  weakly fair execution ends with every buffer at the contents the segments' fold `W9` gives it; the frame reads the
  arguments off that final state, and here the result array is read off it as well, at `W9`'s value.
-/
import proofs.«152368_j89292370084351_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the kernel program terminates without a fault, with the result array at the
    last segment's contents and the arguments as launched. -/
theorem run_result : θ_run defs (onTc (τ := τ) (main (F := F))) ⟨m, fun _ => 0, ρ⟩ (fun r => ∀ c : Dev nD,
      r.2.mem ((c.tc : Thread nD τ).loc main_v62) = W9 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v62 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.Result

end
-- ==== Proof.Spec.lean ====
/-
  The two layer steps of a graph convolution, as functions of whole arrays at the ideal values (extended reals).

  `lin x w` is the dense product: entry (p, o) is the sum over k of x(p, k) · w(k, o).
  `act a b α` adds the per-channel bias b to a and applies the per-channel leaky rectifier: with
  s = a(p, o) + b(o), the entry is s where s ≥ 0 and α(o) · s elsewhere.

  Both programs of this certificate compute, layer by layer,
      act (aggregate (lin h W)) b α
  where `aggregate` gathers rows by source node, scales each by its edge weight and sums them by target node;
  the kernel computes `lin` and `act` ten thousand rows at a time, the reference on the whole array.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The dense product of an N×K array with a K×O array: entry (p, o) is ∑ₖ x(p, k) · w(k, o). -/
def lin {N K O : Nat} (x : FVec Ideal ⟨2, ![N, K]⟩ .f32) (w : FVec Ideal ⟨2, ![K, O]⟩ .f32) :
    FVec Ideal ⟨2, ![N, O]⟩ .f32 :=
  fun i => ∑ k : Fin K, x (ix2 (i 0) k) * w (ix2 k (i 1))

/-- A vector over the channels, repeated along every row. -/
def rows {N O : Nat} (v : FVec Ideal ⟨1, ![O]⟩ .f32) : FVec Ideal ⟨2, ![N, O]⟩ .f32 :=
  fun i => v (ix1 (i 1))

/-- Bias, then the per-channel leaky rectifier: s = a + b channel-wise; s where s ≥ 0, α · s elsewhere. -/
def act {N O : Nat} (a : FVec Ideal ⟨2, ![N, O]⟩ .f32) (b α : FVec Ideal ⟨1, ![O]⟩ .f32) :
    FVec Ideal ⟨2, ![N, O]⟩ .f32 :=
  select (cmpf .oge (addf a (rows b)) (constant ⟨2, ![N, O]⟩ .f32 0x00000000#32))
    (addf a (rows b)) (mulf (rows α) (addf a (rows b)))

/-- `act` at an entry. -/
theorem act_apply {N O : Nat} (a : FVec Ideal ⟨2, ![N, O]⟩ .f32) (b α : FVec Ideal ⟨1, ![O]⟩ .f32)
    (i : (⟨2, ![N, O]⟩ : Shape).Idx) :
    act a b α i = Scalar.select (FloatOps.cmpf .oge (a i + b (ix1 (i 1))) (Ideal.ofBits .f32 0x00000000#32))
      (a i + b (ix1 (i 1))) (α (ix1 (i 1)) * (a i + b (ix1 (i 1)))) := rfl

/-- `lin` at an entry. -/
theorem lin_apply {N K O : Nat} (x : FVec Ideal ⟨2, ![N, K]⟩ .f32) (w : FVec Ideal ⟨2, ![K, O]⟩ .f32)
    (i : (⟨2, ![N, O]⟩ : Shape).Idx) : lin x w i = ∑ k : Fin K, x (ix2 (i 0) k) * w (ix2 k (i 1)) := rfl

end Cert.Spec

end
-- ==== Proof.Chain.lean ====
/-
  The message-passing operations that both programs apply, as functions of arrays.

  From the 2×E edge list e: `src e` and `dst e` are its two rows, each followed by one self-loop per node (the numbers
  0 … N−1); `deg e` counts, per node, the messages that arrive at it (a scatter-add of ones by target); `dinv e` is
  deg^(−1/2) where the degree is positive and 0 elsewhere; `nrm e` is the weight of each message,
  dinv(source) · dinv(target), both read by a gather (`degOf`, `dinvOf`, `nrmOf` are the same as functions of the
  source and target vectors). `wrap` is the index normalization a gather's indices go through
  (a negative index counts from the end), then laid out as a column.
  For node features h, `agg h s d n` gathers the rows of h by source, scales message k by n(k), and sums the messages
  into their target rows (a scatter-add into zeros).
-/
import proofs.«152368_j89292370084351_1_alg».proof.Proof.Gen.KernelIdeal
import proofs.«152368_j89292370084351_1_alg».proof.Proof.Spec

noncomputable section

namespace Cert.KernelIdeal.Chain

open Idealize.ShloMosaic Cert.KernelIdeal Cert.KernelIdeal.Gen

variable {F : FTy → Type} [FloatOps F]

/-- One row of the edge list followed by the self-loops 0 … N−1. -/
def src (e : IVec S2x1600000 32) : IVec S1700000 32 :=
  concatenate S1700000 0
    [⟨S1600000, shapeCast _ (extractStridedSlice S1x1600000 ![0, 0] e slices_S2x1600000_S1x1600000_0_0) shapeCasts_S1x1600000_S1600000⟩,
     ⟨S100000, iotaInDim S100000 32 0⟩] concatenates_S1600000_S100000_S1700000_d0

def dst (e : IVec S2x1600000 32) : IVec S1700000 32 :=
  concatenate S1700000 0
    [⟨S1600000, shapeCast _ (extractStridedSlice S1x1600000 ![1, 0] e slices_S2x1600000_S1x1600000_1_0) shapeCasts_S1x1600000_S1600000⟩,
     ⟨S100000, iotaInDim S100000 32 0⟩] concatenates_S1600000_S100000_S1700000_d0

/-- The number of messages arriving at each node, from the messages' targets d: ones summed by target. -/
def degOf (d : IVec S1700000 32) : FVec F S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 d)
    (broadcastInDim S1700000 ![] bcast_S_S1700000 (constant S_ .f32 0x3F800000#32))

/-- degree^(−1/2) where the degree is positive, 0 elsewhere. -/
def dinvOf (d : IVec S1700000 32) : FVec F S100000 .f32 :=
  select (cmpf .ogt (degOf (F := F) d) (broadcastInDim S100000 ![] bcast_S_S100000 (constant S_ .f32 0x00000000#32)))
    (Host.rsqrt (degOf (F := F) d))
    (broadcastInDim S100000 ![] bcast_S_S100000 (id (constant S_ .f32 0x00000000#32)))

/-- The same two, of the edge list. -/
def deg (e : IVec S2x1600000 32) : FVec F S100000 .f32 := degOf (dst e)
def dinv (e : IVec S2x1600000 32) : FVec F S100000 .f32 := dinvOf (dst e)

/-- A gather's indices: a negative one counts from the end; laid out as a column. -/
def wrap (s : IVec S1700000 32) : IVec S1700000x1 32 :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- The weight of each message, from the messages' sources s and targets d: dinv at the source times dinv at the
    target, both read by a gather. -/
def nrmOf (s d : IVec S1700000 32) : FVec F S1700000 .f32 :=
  mulf (Host.gather gather_S100000_S1700000x1_S1700000_n_0_n_n_0_1_1 (dinvOf (F := F) d) (wrap s))
    (Host.gather gather_S100000_S1700000x1_S1700000_n_0_n_n_0_1_1 (dinvOf (F := F) d) (wrap d))

/-- The weights of the edge list's messages. -/
def nrm (e : IVec S2x1600000 32) : FVec F S1700000 .f32 := nrmOf (src e) (dst e)

/-- Rows of h gathered by source, each scaled by its message's weight, summed into the target rows. -/
def agg (h : FVec F S100000x64 .f32) (s d : IVec S1700000 32) (n : FVec F S1700000 .f32) : FVec F S100000x64 .f32 :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 d)
    (mulf (Host.gather gather_S100000x64_S1700000x1_S1700000x64_1_0_n_n_0_1_164 h (wrap s))
      (broadcastInDim S1700000x64 ![0, 1] bcast_S1700000x1_S1700000x64_0_1
        (broadcastInDim S1700000x1 ![0] bcast_S1700000_S1700000x1_0 n)))

/-- The two-layer network at the ideal values: each layer is the dense product by its weights, the aggregation over the
    graph (self-loops added, symmetric normalization), the bias and the per-channel leaky rectifier. Both programs'
    results are this function of the seven argument arrays. -/
def gcn (x : FVec Ideal S100000x128 .f32) (e : IVec S2x1600000 32) (w1 : FVec Ideal S128x64 .f32) (b1 : FVec Ideal S64 .f32)
    (w2 : FVec Ideal S64x64 .f32) (b2 α : FVec Ideal S64 .f32) : FVec Ideal S100000x64 .f32 :=
  Cert.Spec.act
    (agg (F := Ideal)
      (Cert.Spec.lin
        (Cert.Spec.act (agg (F := Ideal) (Cert.Spec.lin x w1) (src e) (dst e) (nrm (F := Ideal) e)) b1 α)
        w2)
      (src e) (dst e) (nrm (F := Ideal) e))
    b2 α

end Cert.KernelIdeal.Chain

end
-- ==== Proof.KPrefix.lean ====
/-
  The kernel program's array operations before its first dense product, evaluated.

  Its first seven operations build the messages' source and target vectors from the edge list: a row of the list
  followed by the node numbers 0 … N−1 (`Chain.src`, `Chain.dst`). From any buffer contents U that hold those two
  vectors, the remaining operations leave them in place, compute each message's weight from them (`Chain.nrmOf`: the
  degrees, their inverse square roots, two gathers and a product), and view the two bias vectors and the slope vector
  as 1×64 arrays; no argument array is written. Together: at the first product's entry the program holds
  `Chain.src e`, `Chain.dst e`, `Chain.nrm e` of the edge list e and the three reshaped vectors.
-/
import proofs.«152368_j89292370084351_1_alg».proof.Proof.Gen.KernelIdeal.Frame
import proofs.«152368_j89292370084351_1_alg».proof.Proof.Chain
import Idealize.ShloMosaic.Lib.StableHlo.Run
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.SL.Sem

variable {F : FTy → Type} [FloatOps F]

/-- The operations that build the source and target vectors. -/
abbrev headOps : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_v4 (iotaInDim S100000 32 0),
    StableHlo.binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The rest of the first stretch: the degrees and the start of their inverse square roots. -/
abbrev tailOps : List (HloOp τ sig (Elt F)) :=
  [ StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32) ]

theorem hostOps0_split : (hostOps0 : List (HloOp τ sig (Elt F))) = headOps ++ tailOps := rfl

/-- Running two lists of operations one after the other is running their concatenation. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih (op.result V)

/-- A two-piece concatenation depends only on its two pieces. -/
theorem concat2_congr {a a' : S1600000.Idx → BitVec 32} {b b' : S100000.Idx → BitVec 32} (ha : a = a') (hb : b = b')
    (h : Shape.Concatenates [S1600000, S100000] S1700000 0) :
    concatenate S1700000 0 [⟨S1600000, a⟩, ⟨S100000, b⟩] h = concatenate S1700000 0 [⟨S1600000, a'⟩, ⟨S100000, b'⟩] h := by
  subst ha hb; rfl

/-! ## The source and target vectors -/

section Head
variable (U : Valuation τ sig (Elt Ideal))

set_option maxHeartbeats 1000000 in
theorem head_v5 : StableHlo.after headOps U (Proc.devRef .tc main_v5) = Chain.src (U (Proc.devRef .tc main_arg1)) := by
  after_results_simp
  unfold Chain.src
  refine concat2_congr ?_ ?_ _
  · after_results_simp <;> rfl
  · after_results_simp <;> rfl

set_option maxHeartbeats 1000000 in
theorem head_v6 : StableHlo.after headOps U (Proc.devRef .tc main_v6) = Chain.dst (U (Proc.devRef .tc main_arg1)) := by
  after_results_simp
  unfold Chain.dst
  refine concat2_congr ?_ ?_ _
  · after_results_simp <;> rfl
  · after_results_simp <;> rfl

end Head

/-! ## From contents that hold the two vectors: the weights and the reshaped vectors

The three remaining stretches are evaluated one at a time, each from arbitrary contents. -/

section Tail

/-! ### The rest of the first stretch: the degrees, compared with zero and under the inverse square root -/

section Degrees
variable (U : Valuation τ sig (Elt Ideal))

set_option maxHeartbeats 1000000 in
theorem tail_v12 : StableHlo.after tailOps U (Proc.devRef .tc main_v12)
    = cmpf .ogt (Chain.degOf (F := Ideal) (U (Proc.devRef .tc main_v6))) (broadcastInDim S100000 ![] bcast_S_S100000 (constant S_ .f32 0x00000000#32)) := by
  after_results_simp; unfold Chain.degOf; rfl

set_option maxHeartbeats 1000000 in
theorem tail_v13 : StableHlo.after tailOps U (Proc.devRef .tc main_v13) = Host.rsqrt (Chain.degOf (F := Ideal) (U (Proc.devRef .tc main_v6))) := by
  after_results_simp; unfold Chain.degOf; rfl

set_option maxHeartbeats 1000000 in
theorem tail_cst_2 : StableHlo.after tailOps U (Proc.devRef .tc main_cst_2) = constant (F := Ideal) S_ .f32 0x00000000#32 := by
  after_results_simp <;> rfl

set_option maxHeartbeats 1000000 in
theorem tail_v5 : StableHlo.after tailOps U (Proc.devRef .tc main_v5) = U (Proc.devRef .tc main_v5) := by after_results_simp

set_option maxHeartbeats 1000000 in
theorem tail_v6 : StableHlo.after tailOps U (Proc.devRef .tc main_v6) = U (Proc.devRef .tc main_v6) := by after_results_simp

set_option maxHeartbeats 1000000 in
theorem tail_arg0 : StableHlo.after tailOps U (Proc.devRef .tc main_arg0) = U (Proc.devRef .tc main_arg0) := by after_results_simp

set_option maxHeartbeats 1000000 in
theorem tail_arg2 : StableHlo.after tailOps U (Proc.devRef .tc main_arg2) = U (Proc.devRef .tc main_arg2) := by after_results_simp

set_option maxHeartbeats 1000000 in
theorem tail_arg3 : StableHlo.after tailOps U (Proc.devRef .tc main_arg3) = U (Proc.devRef .tc main_arg3) := by after_results_simp

set_option maxHeartbeats 1000000 in
theorem tail_arg4 : StableHlo.after tailOps U (Proc.devRef .tc main_arg4) = U (Proc.devRef .tc main_arg4) := by after_results_simp

set_option maxHeartbeats 1000000 in
theorem tail_arg5 : StableHlo.after tailOps U (Proc.devRef .tc main_arg5) = U (Proc.devRef .tc main_arg5) := by after_results_simp

set_option maxHeartbeats 1000000 in
theorem tail_arg6 : StableHlo.after tailOps U (Proc.devRef .tc main_arg6) = U (Proc.devRef .tc main_arg6) := by after_results_simp

end Degrees

/-! ### The outlined selection: the inverse square root where the degree is positive, zero elsewhere -/

section Selection
variable (X : Valuation τ sig (Elt Ideal))

set_option maxHeartbeats 1000000 in
theorem where_v14 : StableHlo.after hostOps0_1 X (Proc.devRef .tc main_v14)
    = select (X (Proc.devRef .tc main_v12)) (X (Proc.devRef .tc main_v13)) (broadcastInDim S100000 ![] bcast_S_S100000 (id (X (Proc.devRef .tc main_cst_2)))) := by
  after_results_simp; rfl

set_option maxHeartbeats 1000000 in
theorem where_v5 : StableHlo.after hostOps0_1 X (Proc.devRef .tc main_v5) = X (Proc.devRef .tc main_v5) := by after_results_simp

set_option maxHeartbeats 1000000 in
theorem where_v6 : StableHlo.after hostOps0_1 X (Proc.devRef .tc main_v6) = X (Proc.devRef .tc main_v6) := by after_results_simp

set_option maxHeartbeats 1000000 in
theorem where_arg0 : StableHlo.after hostOps0_1 X (Proc.devRef .tc main_arg0) = X (Proc.devRef .tc main_arg0) := by after_results_simp

set_option maxHeartbeats 1000000 in
theorem where_arg2 : StableHlo.after hostOps0_1 X (Proc.devRef .tc main_arg2) = X (Proc.devRef .tc main_arg2) := by after_results_simp

set_option maxHeartbeats 1000000 in
theorem where_arg3 : StableHlo.after hostOps0_1 X (Proc.devRef .tc main_arg3) = X (Proc.devRef .tc main_arg3) := by after_results_simp

set_option maxHeartbeats 1000000 in
theorem where_arg4 : StableHlo.after hostOps0_1 X (Proc.devRef .tc main_arg4) = X (Proc.devRef .tc main_arg4) := by after_results_simp

set_option maxHeartbeats 1000000 in
theorem where_arg5 : StableHlo.after hostOps0_1 X (Proc.devRef .tc main_arg5) = X (Proc.devRef .tc main_arg5) := by after_results_simp

set_option maxHeartbeats 1000000 in
theorem where_arg6 : StableHlo.after hostOps0_1 X (Proc.devRef .tc main_arg6) = X (Proc.devRef .tc main_arg6) := by after_results_simp

end Selection

/-! ### The third stretch: the two gathers and their product, and the three vectors viewed as 1×64 arrays -/

section Weights
variable (Y : Valuation τ sig (Elt Ideal))

set_option maxHeartbeats 2000000 in
theorem last_v29 : StableHlo.after hostOps0_2 Y (Proc.devRef .tc main_v29)
    = (mulf (Host.gather gather_S100000_S1700000x1_S1700000_n_0_n_n_0_1_1 (Y (Proc.devRef .tc main_v14) : FVec Ideal S100000 .f32) (Chain.wrap (Y (Proc.devRef .tc main_v5))))
        (Host.gather gather_S100000_S1700000x1_S1700000_n_0_n_n_0_1_1 (Y (Proc.devRef .tc main_v14) : FVec Ideal S100000 .f32) (Chain.wrap (Y (Proc.devRef .tc main_v6)))) : FVec Ideal S1700000 .f32) := by
  after_results_simp; unfold Chain.wrap; rfl

set_option maxHeartbeats 1000000 in
theorem last_v30 : StableHlo.after hostOps0_2 Y (Proc.devRef .tc main_v30) = shapeCast _ (Y (Proc.devRef .tc main_arg3)) shapeCasts_S64_S1x64 := by
  after_results_simp; rfl

set_option maxHeartbeats 1000000 in
theorem last_v31 : StableHlo.after hostOps0_2 Y (Proc.devRef .tc main_v31) = shapeCast _ (Y (Proc.devRef .tc main_arg5)) shapeCasts_S64_S1x64 := by
  after_results_simp; rfl

set_option maxHeartbeats 1000000 in
theorem last_v32 : StableHlo.after hostOps0_2 Y (Proc.devRef .tc main_v32) = shapeCast _ (Y (Proc.devRef .tc main_arg6)) shapeCasts_S64_S1x64 := by
  after_results_simp; rfl

set_option maxHeartbeats 1000000 in
theorem last_v5 : StableHlo.after hostOps0_2 Y (Proc.devRef .tc main_v5) = Y (Proc.devRef .tc main_v5) := by after_results_simp

set_option maxHeartbeats 1000000 in
theorem last_v6 : StableHlo.after hostOps0_2 Y (Proc.devRef .tc main_v6) = Y (Proc.devRef .tc main_v6) := by after_results_simp

set_option maxHeartbeats 1000000 in
theorem last_arg0 : StableHlo.after hostOps0_2 Y (Proc.devRef .tc main_arg0) = Y (Proc.devRef .tc main_arg0) := by after_results_simp

set_option maxHeartbeats 1000000 in
theorem last_arg2 : StableHlo.after hostOps0_2 Y (Proc.devRef .tc main_arg2) = Y (Proc.devRef .tc main_arg2) := by after_results_simp

set_option maxHeartbeats 1000000 in
theorem last_arg4 : StableHlo.after hostOps0_2 Y (Proc.devRef .tc main_arg4) = Y (Proc.devRef .tc main_arg4) := by after_results_simp

end Weights

/-! ### Together -/

variable (U : Valuation τ sig (Elt Ideal))

/-- The contents at the first product's entry, from contents U after the first seven operations. -/
abbrev entry (U : Valuation τ sig (Elt Ideal)) : Valuation τ sig (Elt Ideal) :=
  StableHlo.after hostOps0_2 (StableHlo.after hostOps0_1 (StableHlo.after tailOps U))

theorem entry_v5 : entry U (Proc.devRef .tc main_v5) = U (Proc.devRef .tc main_v5) := by
  unfold entry; rw [last_v5, where_v5, tail_v5]
theorem entry_v6 : entry U (Proc.devRef .tc main_v6) = U (Proc.devRef .tc main_v6) := by
  unfold entry; rw [last_v6, where_v6, tail_v6]
theorem entry_arg0 : entry U (Proc.devRef .tc main_arg0) = U (Proc.devRef .tc main_arg0) := by
  unfold entry; rw [last_arg0, where_arg0, tail_arg0]
theorem entry_arg2 : entry U (Proc.devRef .tc main_arg2) = U (Proc.devRef .tc main_arg2) := by
  unfold entry; rw [last_arg2, where_arg2, tail_arg2]
theorem entry_arg4 : entry U (Proc.devRef .tc main_arg4) = U (Proc.devRef .tc main_arg4) := by
  unfold entry; rw [last_arg4, where_arg4, tail_arg4]
theorem entry_v30 : entry U (Proc.devRef .tc main_v30) = shapeCast _ (U (Proc.devRef .tc main_arg3)) shapeCasts_S64_S1x64 := by
  unfold entry; rw [last_v30, where_arg3, tail_arg3]
theorem entry_v31 : entry U (Proc.devRef .tc main_v31) = shapeCast _ (U (Proc.devRef .tc main_arg5)) shapeCasts_S64_S1x64 := by
  unfold entry; rw [last_v31, where_arg5, tail_arg5]
theorem entry_v32 : entry U (Proc.devRef .tc main_v32) = shapeCast _ (U (Proc.devRef .tc main_arg6)) shapeCasts_S64_S1x64 := by
  unfold entry; rw [last_v32, where_arg6, tail_arg6]

/-- The messages' weights at the first product's entry: `Chain.nrmOf` of the two vectors. -/
theorem entry_v29 : entry U (Proc.devRef .tc main_v29)
    = Chain.nrmOf (F := Ideal) (U (Proc.devRef .tc main_v5)) (U (Proc.devRef .tc main_v6)) := by
  unfold entry
  rw [last_v29, where_v14, where_v5, where_v6, tail_v12, tail_v13, tail_cst_2, tail_v5, tail_v6]
  rfl

end Tail

end Cert.KernelIdeal.KValue

end
-- ==== Proof.KWalk.lean ====
/-
  The kernel program's result as a function of its arguments.

  The program's buffer contents are followed through its nine segments. A stretch of array operations changes only the
  buffers it writes; a pallas_call changes only its output array, which ends holding the dense product (`Spec.lin`) or
  the bias-and-rectifier (`Spec.act`) of its input arrays as the call found them. The messages' source and target
  vectors, their weights and the reshaped bias and slope vectors are computed once, before the first call, and are
  read again, unchanged, by every later segment. Composed, the result array is `Chain.gcn` of the seven arguments.
-/
import proofs.«152368_j89292370084351_1_alg».proof.Proof.Gen.KernelIdeal.Frame
import proofs.«152368_j89292370084351_1_alg».proof.Proof.Chain
import proofs.«152368_j89292370084351_1_alg».proof.Proof.Spec
import proofs.«152368_j89292370084351_1_alg».proof.Proof.KPrefix
import Idealize.ShloMosaic.Lib.StableHlo.Run
import Idealize.ShloMosaic.Lib.Pipeline.Value
import Idealize.ShloMosaic.Lib.ValueIdx

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg) (c : Dev nD)

/-! ## Before the first product -/

/-- The contents at the first product's entry are the first seven operations' followed by the rest. -/
theorem W3_eq : W3 m ρ c = entry (StableHlo.after headOps (W0 m ρ c)) := by
  show StableHlo.after hostOps0_2 (StableHlo.after hostOps0_1 (StableHlo.after hostOps0 (W0 m ρ c))) = _
  rw [hostOps0_split, after_append]

theorem w3_v5 : W3 m ρ c (Proc.devRef .tc main_v5) = Chain.src (m ((c : Thread nD τ).loc main_arg1)) := by
  rw [W3_eq, entry_v5, head_v5]
theorem w3_v6 : W3 m ρ c (Proc.devRef .tc main_v6) = Chain.dst (m ((c : Thread nD τ).loc main_arg1)) := by
  rw [W3_eq, entry_v6, head_v6]
theorem w3_v29 : W3 m ρ c (Proc.devRef .tc main_v29) = Chain.nrm (F := Ideal) (m ((c : Thread nD τ).loc main_arg1)) := by
  rw [W3_eq, entry_v29, head_v5, head_v6]; rfl
theorem w3_v30 : W3 m ρ c (Proc.devRef .tc main_v30) = shapeCast _ (m ((c : Thread nD τ).loc main_arg3)) shapeCasts_S64_S1x64 := by
  rw [W3_eq, entry_v30]; rfl
theorem w3_v31 : W3 m ρ c (Proc.devRef .tc main_v31) = shapeCast _ (m ((c : Thread nD τ).loc main_arg5)) shapeCasts_S64_S1x64 := by
  rw [W3_eq, entry_v31]; rfl
theorem w3_v32 : W3 m ρ c (Proc.devRef .tc main_v32) = shapeCast _ (m ((c : Thread nD τ).loc main_arg6)) shapeCasts_S64_S1x64 := by
  rw [W3_eq, entry_v32]; rfl

/-! No argument array is written before the first product. -/

set_option maxHeartbeats 1000000 in
theorem head_arg0 (U : Valuation τ sig (Elt Ideal)) : StableHlo.after headOps U (Proc.devRef .tc main_arg0) = U (Proc.devRef .tc main_arg0) := by
  after_results_simp
theorem w3_arg0 : W3 m ρ c (Proc.devRef .tc main_arg0) = m ((c : Thread nD τ).loc main_arg0) := by
  rw [W3_eq, entry_arg0, head_arg0]
set_option maxHeartbeats 1000000 in
theorem head_arg2 (U : Valuation τ sig (Elt Ideal)) : StableHlo.after headOps U (Proc.devRef .tc main_arg2) = U (Proc.devRef .tc main_arg2) := by
  after_results_simp
theorem w3_arg2 : W3 m ρ c (Proc.devRef .tc main_arg2) = m ((c : Thread nD τ).loc main_arg2) := by
  rw [W3_eq, entry_arg2, head_arg2]
set_option maxHeartbeats 1000000 in
theorem head_arg4 (U : Valuation τ sig (Elt Ideal)) : StableHlo.after headOps U (Proc.devRef .tc main_arg4) = U (Proc.devRef .tc main_arg4) := by
  after_results_simp
theorem w3_arg4 : W3 m ρ c (Proc.devRef .tc main_arg4) = m ((c : Thread nD τ).loc main_arg4) := by
  rw [W3_eq, entry_arg4, head_arg4]

/-! ## The first product -/
theorem w4_v5 : W4 m ρ c (Proc.devRef .tc main_v5) = W3 m ρ c (Proc.devRef .tc main_v5) := W4_of_ne m ρ c main_v5 (by decide)
theorem w4_v6 : W4 m ρ c (Proc.devRef .tc main_v6) = W3 m ρ c (Proc.devRef .tc main_v6) := W4_of_ne m ρ c main_v6 (by decide)
theorem w4_v29 : W4 m ρ c (Proc.devRef .tc main_v29) = W3 m ρ c (Proc.devRef .tc main_v29) := W4_of_ne m ρ c main_v29 (by decide)
theorem w4_v30 : W4 m ρ c (Proc.devRef .tc main_v30) = W3 m ρ c (Proc.devRef .tc main_v30) := W4_of_ne m ρ c main_v30 (by decide)
theorem w4_v31 : W4 m ρ c (Proc.devRef .tc main_v31) = W3 m ρ c (Proc.devRef .tc main_v31) := W4_of_ne m ρ c main_v31 (by decide)
theorem w4_v32 : W4 m ρ c (Proc.devRef .tc main_v32) = W3 m ρ c (Proc.devRef .tc main_v32) := W4_of_ne m ρ c main_v32 (by decide)
theorem w4_arg4 : W4 m ρ c (Proc.devRef .tc main_arg4) = W3 m ρ c (Proc.devRef .tc main_arg4) := W4_of_ne m ρ c main_arg4 (by decide)

theorem w4_v33 (hlin0 : ∀ (V : (c : Dev nD) → (b : Ref sig .tc) → Buf (Elt Ideal) ((c : Thread nD τ).loc b)) (c : Dev nD), (dat0 (F := Ideal) V c).arrAt 2 cfg0.N = Cert.Spec.lin (V c main_arg0) (V c main_arg2)) :
    W4 m ρ c (Proc.devRef .tc main_v33) = Cert.Spec.lin (m ((c : Thread nD τ).loc main_arg0)) (m ((c : Thread nD τ).loc main_arg2)) :=
  calc W4 m ρ c (Proc.devRef .tc main_v33)
    _ = (dat0 (V3 m ρ) c).arrAt 2 cfg0.N := W4_arr m ρ c 2
    _ = Cert.Spec.lin (V3 m ρ c main_arg0) (V3 m ρ c main_arg2) := hlin0 (V3 m ρ) c
    _ = Cert.Spec.lin (m ((c : Thread nD τ).loc main_arg0)) (m ((c : Thread nD τ).loc main_arg2)) := by
        rw [show V3 m ρ c main_arg0 = m ((c : Thread nD τ).loc main_arg0) from w3_arg0 m ρ c, show V3 m ρ c main_arg2 = m ((c : Thread nD τ).loc main_arg2) from w3_arg2 m ρ c]

/-! ## The first aggregation -/
set_option maxHeartbeats 1000000 in
theorem w5_v5 : W5 m ρ c (Proc.devRef .tc main_v5) = W4 m ρ c (Proc.devRef .tc main_v5) := by
  show StableHlo.after hostOps1 (W4 m ρ c) _ = _; after_results_simp
set_option maxHeartbeats 1000000 in
theorem w5_v6 : W5 m ρ c (Proc.devRef .tc main_v6) = W4 m ρ c (Proc.devRef .tc main_v6) := by
  show StableHlo.after hostOps1 (W4 m ρ c) _ = _; after_results_simp
set_option maxHeartbeats 1000000 in
theorem w5_v29 : W5 m ρ c (Proc.devRef .tc main_v29) = W4 m ρ c (Proc.devRef .tc main_v29) := by
  show StableHlo.after hostOps1 (W4 m ρ c) _ = _; after_results_simp
set_option maxHeartbeats 1000000 in
theorem w5_v30 : W5 m ρ c (Proc.devRef .tc main_v30) = W4 m ρ c (Proc.devRef .tc main_v30) := by
  show StableHlo.after hostOps1 (W4 m ρ c) _ = _; after_results_simp
set_option maxHeartbeats 1000000 in
theorem w5_v31 : W5 m ρ c (Proc.devRef .tc main_v31) = W4 m ρ c (Proc.devRef .tc main_v31) := by
  show StableHlo.after hostOps1 (W4 m ρ c) _ = _; after_results_simp
set_option maxHeartbeats 1000000 in
theorem w5_v32 : W5 m ρ c (Proc.devRef .tc main_v32) = W4 m ρ c (Proc.devRef .tc main_v32) := by
  show StableHlo.after hostOps1 (W4 m ρ c) _ = _; after_results_simp
set_option maxHeartbeats 1000000 in
theorem w5_arg4 : W5 m ρ c (Proc.devRef .tc main_arg4) = W4 m ρ c (Proc.devRef .tc main_arg4) := by
  show StableHlo.after hostOps1 (W4 m ρ c) _ = _; after_results_simp

set_option maxHeartbeats 2000000 in
theorem w5_v46 : W5 m ρ c (Proc.devRef .tc main_v46)
    = Chain.agg (F := Ideal) (W4 m ρ c (Proc.devRef .tc main_v33)) (W4 m ρ c (Proc.devRef .tc main_v5)) (W4 m ρ c (Proc.devRef .tc main_v6)) (W4 m ρ c (Proc.devRef .tc main_v29)) := by
  show StableHlo.after hostOps1 (W4 m ρ c) _ = _
  after_results_simp
  unfold Chain.agg Chain.wrap
  rfl

/-! ## The first bias-and-rectifier -/
theorem w6_v5 : W6 m ρ c (Proc.devRef .tc main_v5) = W5 m ρ c (Proc.devRef .tc main_v5) := W6_of_ne m ρ c main_v5 (by decide)
theorem w6_v6 : W6 m ρ c (Proc.devRef .tc main_v6) = W5 m ρ c (Proc.devRef .tc main_v6) := W6_of_ne m ρ c main_v6 (by decide)
theorem w6_v29 : W6 m ρ c (Proc.devRef .tc main_v29) = W5 m ρ c (Proc.devRef .tc main_v29) := W6_of_ne m ρ c main_v29 (by decide)
theorem w6_v31 : W6 m ρ c (Proc.devRef .tc main_v31) = W5 m ρ c (Proc.devRef .tc main_v31) := W6_of_ne m ρ c main_v31 (by decide)
theorem w6_arg4 : W6 m ρ c (Proc.devRef .tc main_arg4) = W5 m ρ c (Proc.devRef .tc main_arg4) := W6_of_ne m ρ c main_arg4 (by decide)
/-- The slope vector is an input of this call: it is staged, never written back. -/
theorem w6_v32 : W6 m ρ c (Proc.devRef .tc main_v32) = W5 m ρ c (Proc.devRef .tc main_v32) :=
  (W6_arr m ρ c 2).trans (((dat1 (V5 m ρ) c).arrAt_in 2 rfl _).trans (A_eq1 (V5 m ρ) c 2))

theorem w6_v47 (hact1 : ∀ (V : (c : Dev nD) → (b : Ref sig .tc) → Buf (Elt Ideal) ((c : Thread nD τ).loc b)) (c : Dev nD), (dat1 (F := Ideal) V c).arrAt 3 cfg1.N
      = Cert.Spec.act (V c main_v46) (fun j => V c main_v30 (ix2 0 (j 0))) (fun j => V c main_v32 (ix2 0 (j 0)))) :
    W6 m ρ c (Proc.devRef .tc main_v47) = Cert.Spec.act (W5 m ρ c (Proc.devRef .tc main_v46)) (fun j => W5 m ρ c (Proc.devRef .tc main_v30) (ix2 0 (j 0))) (fun j => W5 m ρ c (Proc.devRef .tc main_v32) (ix2 0 (j 0))) :=
  (W6_arr m ρ c 3).trans (hact1 (V5 m ρ) c)

/-! ## The second product -/
theorem w7_v5 : W7 m ρ c (Proc.devRef .tc main_v5) = W6 m ρ c (Proc.devRef .tc main_v5) := W7_of_ne m ρ c main_v5 (by decide)
theorem w7_v6 : W7 m ρ c (Proc.devRef .tc main_v6) = W6 m ρ c (Proc.devRef .tc main_v6) := W7_of_ne m ρ c main_v6 (by decide)
theorem w7_v29 : W7 m ρ c (Proc.devRef .tc main_v29) = W6 m ρ c (Proc.devRef .tc main_v29) := W7_of_ne m ρ c main_v29 (by decide)
theorem w7_v31 : W7 m ρ c (Proc.devRef .tc main_v31) = W6 m ρ c (Proc.devRef .tc main_v31) := W7_of_ne m ρ c main_v31 (by decide)
theorem w7_v32 : W7 m ρ c (Proc.devRef .tc main_v32) = W6 m ρ c (Proc.devRef .tc main_v32) := W7_of_ne m ρ c main_v32 (by decide)

theorem w7_v48 (hlin2 : ∀ (V : (c : Dev nD) → (b : Ref sig .tc) → Buf (Elt Ideal) ((c : Thread nD τ).loc b)) (c : Dev nD), (dat2 (F := Ideal) V c).arrAt 2 cfg2.N = Cert.Spec.lin (V c main_v47) (V c main_arg4)) :
    W7 m ρ c (Proc.devRef .tc main_v48) = Cert.Spec.lin (W6 m ρ c (Proc.devRef .tc main_v47)) (W6 m ρ c (Proc.devRef .tc main_arg4)) :=
  (W7_arr m ρ c 2).trans (hlin2 (V6 m ρ) c)

/-! ## The second aggregation -/
set_option maxHeartbeats 1000000 in
theorem w8_v31 : W8 m ρ c (Proc.devRef .tc main_v31) = W7 m ρ c (Proc.devRef .tc main_v31) := by
  show StableHlo.after hostOps3 (W7 m ρ c) _ = _; after_results_simp
set_option maxHeartbeats 1000000 in
theorem w8_v32 : W8 m ρ c (Proc.devRef .tc main_v32) = W7 m ρ c (Proc.devRef .tc main_v32) := by
  show StableHlo.after hostOps3 (W7 m ρ c) _ = _; after_results_simp

set_option maxHeartbeats 2000000 in
theorem w8_v61 : W8 m ρ c (Proc.devRef .tc main_v61)
    = Chain.agg (F := Ideal) (W7 m ρ c (Proc.devRef .tc main_v48)) (W7 m ρ c (Proc.devRef .tc main_v5)) (W7 m ρ c (Proc.devRef .tc main_v6)) (W7 m ρ c (Proc.devRef .tc main_v29)) := by
  show StableHlo.after hostOps3 (W7 m ρ c) _ = _
  after_results_simp
  unfold Chain.agg Chain.wrap
  rfl

/-! ## The second bias-and-rectifier -/

theorem w9_v62 (hact3 : ∀ (V : (c : Dev nD) → (b : Ref sig .tc) → Buf (Elt Ideal) ((c : Thread nD τ).loc b)) (c : Dev nD), (dat3 (F := Ideal) V c).arrAt 3 cfg3.N
      = Cert.Spec.act (V c main_v61) (fun j => V c main_v31 (ix2 0 (j 0))) (fun j => V c main_v32 (ix2 0 (j 0)))) :
    W9 m ρ c (Proc.devRef .tc main_v62) = Cert.Spec.act (W8 m ρ c (Proc.devRef .tc main_v61)) (fun j => W8 m ρ c (Proc.devRef .tc main_v31) (ix2 0 (j 0))) (fun j => W8 m ρ c (Proc.devRef .tc main_v32) (ix2 0 (j 0))) :=
  (W9_arr m ρ c 3).trans (hact3 (V8 m ρ) c)

/-! ## Composed -/

/-- A vector of 64 viewed as a 1×64 array, read back along its one row, is the vector. -/
theorem row_of_reshape (b : FVec Ideal S64 .f32) :
    (fun j : S64.Idx => (shapeCast S1x64 b shapeCasts_S64_S1x64 : FVec Ideal S1x64 .f32) (ix2 0 (j 0))) = b := by
  funext j
  exact (shapeCast_addUnit_apply ![64] b shapeCasts_S64_S1x64 (ix2 0 (j 0))).trans
    (congrArg b (funext fun a => by match a with | ⟨0, _⟩ => rfl))

/-- The kernel program's result array, from the four calls' values: the two-layer network of the arguments. -/
theorem kernel_value
    (hlin0 : ∀ (V : (c : Dev nD) → (b : Ref sig .tc) → Buf (Elt Ideal) ((c : Thread nD τ).loc b)) (c : Dev nD), (dat0 (F := Ideal) V c).arrAt 2 cfg0.N = Cert.Spec.lin (V c main_arg0) (V c main_arg2))
    (hact1 : ∀ (V : (c : Dev nD) → (b : Ref sig .tc) → Buf (Elt Ideal) ((c : Thread nD τ).loc b)) (c : Dev nD), (dat1 (F := Ideal) V c).arrAt 3 cfg1.N
      = Cert.Spec.act (V c main_v46) (fun j => V c main_v30 (ix2 0 (j 0))) (fun j => V c main_v32 (ix2 0 (j 0))))
    (hlin2 : ∀ (V : (c : Dev nD) → (b : Ref sig .tc) → Buf (Elt Ideal) ((c : Thread nD τ).loc b)) (c : Dev nD), (dat2 (F := Ideal) V c).arrAt 2 cfg2.N = Cert.Spec.lin (V c main_v47) (V c main_arg4))
    (hact3 : ∀ (V : (c : Dev nD) → (b : Ref sig .tc) → Buf (Elt Ideal) ((c : Thread nD τ).loc b)) (c : Dev nD), (dat3 (F := Ideal) V c).arrAt 3 cfg3.N
      = Cert.Spec.act (V c main_v61) (fun j => V c main_v31 (ix2 0 (j 0))) (fun j => V c main_v32 (ix2 0 (j 0)))) :
    W9 m ρ c (Proc.devRef .tc main_v62)
      = Chain.gcn (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) := by
  rw [w9_v62 m ρ c hact3, w8_v61, w8_v31, w8_v32,
    w7_v48 m ρ c hlin2, w7_v5, w7_v6, w7_v29, w7_v31, w7_v32,
    w6_v47 m ρ c hact1, w6_v5, w6_v6, w6_v29, w6_v31, w6_v32, w6_arg4,
    w5_v46, w5_v5, w5_v6, w5_v29, w5_v30, w5_v31, w5_v32, w5_arg4,
    w4_v33 m ρ c hlin0, w4_v5, w4_v6, w4_v29, w4_v30, w4_v31, w4_v32, w4_arg4,
    w3_v5, w3_v6, w3_v29, w3_v30, w3_v31, w3_v32, w3_arg4]
  simp only [row_of_reshape]
  rfl

end Cert.KernelIdeal.KValue

end
-- ==== Proof.LinBlocks.lean ====
/-
  The two dense products of the kernel, each computed ten thousand rows at a time, are the dense products of
  the whole arrays.

  A dense-product region walks ten grid points. At point t it is handed rows 10000·t … 10000·t + 9999 of the
  row operand and the whole weight matrix, multiplies them (the narrowing of the operands' format is the
  identity on extended reals, and the accumulator starts at zero, so entry (p, q) of the block product is
  ∑ₖ x(p, k) · w(k, q)), and writes the result back as rows 10000·t … 10000·t + 9999 of the output.

  Row r of the whole product depends only on row r of the row operand and on the weights, so the block written
  at point t is exactly block t of the whole product `Cert.Spec.lin`; every row r lies in the block of point
  r / 10000, so the ten blocks fill the output array, which therefore ends holding the whole product.

  The first product is 100000×128 by 128×64, the second 100000×64 by 64×64; the second proof is the first with
  the extents changed (and one identity reshape in front of the row operand).
-/
import proofs.«152368_j89292370084351_1_alg».proof.Proof.Gen.KernelIdeal.Frame
import proofs.«152368_j89292370084351_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)

/-- Both index offsets of a whole-block access are zero. -/
theorem lin_origin : (![0, 0] : Fin 2 → Nat) = fun _ => 0 := funext fun a => by fin_cases a <;> rfl

/-! ## The first product: 100000×128 by 128×64 -/

set_option maxHeartbeats 400000 in
/-- The first product's payload at an entry: with the format change the identity and the accumulator zero,
    entry (p, q) of the block product is the sum over k of x0(p, k) · x1(k, q). -/
theorem pay0_apply (x0 : Vec Ideal S10000x128 .f32) (x1 : Vec Ideal S128x64 .f32) (p : Fin 10000) (q : Fin 64) :
    k0_pay1 (F := Ideal) x0 x1 (ix2 p q) = ∑ k : Fin 128, x0 (ix2 p k) * x1 (ix2 k q) := by
  unfold k0_pay1
  simp only [matmul]
  refine (Ideal.matmul_constant_zero_apply dot_S10000x128_S128x64_S10000x64_1_0_0_1_n_n none _ _ (ix2 p q)).trans ?_
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  rw [truncf_apply, truncf_apply]
  have el : dot_S10000x128_S128x64_S10000x64_1_0_0_1_n_n.lhsIdx (ix2 p q) ((ValueIdx.contrEquiv1 dot_S10000x128_S128x64_S10000x64_1_0_0_1_n_n 128 rfl rfl).symm k) = ix2 p k := funext fun a => Fin.ext (by
    match a with
    | ⟨0, _⟩ =>
      show (dot_S10000x128_S128x64_S10000x64_1_0_0_1_n_n.lhsIdx (ix2 p q) _ 0).val = p.val
      unfold DotDims.lhsIdx
      rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
      rfl
    | ⟨1, _⟩ => exact (dot_S10000x128_S128x64_S10000x64_1_0_0_1_n_n.lhsIdx_val_of_single rfl (ix2 p q) _).trans hk)
  have er : dot_S10000x128_S128x64_S10000x64_1_0_0_1_n_n.rhsIdx (ix2 p q) ((ValueIdx.contrEquiv1 dot_S10000x128_S128x64_S10000x64_1_0_0_1_n_n 128 rfl rfl).symm k) = ix2 k q := funext fun a => Fin.ext (by
    match a with
    | ⟨0, _⟩ => exact (dot_S10000x128_S128x64_S10000x64_1_0_0_1_n_n.rhsIdx_val_of_single rfl (ix2 p q) _).trans hk
    | ⟨1, _⟩ =>
      show (dot_S10000x128_S128x64_S10000x64_1_0_0_1_n_n.rhsIdx (ix2 p q) _ 1).val = q.val
      unfold DotDims.rhsIdx
      rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
      rfl)
  rw [el, er]

/-- The block product agrees with the whole product wherever the block's operands are the corresponding
    rows of the whole operands. -/
theorem prod0_at (x0 : Vec Ideal S10000x128 .f32) (x1 : Vec Ideal S128x64 .f32)
    (A : FVec Ideal S100000x128 .f32) (W : FVec Ideal S128x64 .f32)
    (p : Fin 10000) (q : Fin 64) (r : Fin 100000)
    (h0 : ∀ k : Fin 128, x0 (ix2 p k) = A (ix2 r k)) (h1 : ∀ k : Fin 128, x1 (ix2 k q) = W (ix2 k q)) :
    k0_pay1 (F := Ideal) x0 x1 (ix2 p q) = Cert.Spec.lin A W (ix2 r q) := by
  rw [pay0_apply, Cert.Spec.lin_apply]
  show _ = ∑ k : Fin 128, A (ix2 r k) * W (ix2 k q)
  exact Finset.sum_congr rfl fun k _ => by rw [h0 k, h1 k]

/-- The block index of each window at each of the ten points: the row operands move with the point, the
    weights stay. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

set_option maxHeartbeats 400000 in
/-- Row p of the point's block of the first operand is row 10000·t + p of the array. -/
theorem read0_x (V : (c : Dev nD) → (b : Ref sig .tc) → Buf (Elt Ideal) ((c : Thread nD τ).loc b)) (c : Dev nD) (t : Fin cfg0.N) (p : Fin 10000) (k : Fin 128) (r : Fin 100000)
    (hr : r.val = t.val * 10000 + p.val) :
    (iblk0 V c 0 t : Vec Ideal S10000x128 .f32) (ix2 p k) = (V c main_arg0 : FVec Ideal S100000x128 .f32) (ix2 r k) := by
  obtain ⟨e0, e1, -, -, -, -⟩ := idx_facts0 t
  unfold iblk0
  rw [View.read_apply]
  show V c main_arg0 _ = V c main_arg0 _
  congr 1
  funext a
  apply Fin.ext
  match a with
  | ⟨0, _⟩ => show win0_0.index t (0 : Fin 2) * 10000 + 1 * p.val = r.val; rw [e0, hr]; omega
  | ⟨1, _⟩ => show win0_0.index t (1 : Fin 2) * 128 + 1 * k.val = k.val; rw [e1]; omega

set_option maxHeartbeats 400000 in
/-- The weights' block is the whole array at every point. -/
theorem read0_w (V : (c : Dev nD) → (b : Ref sig .tc) → Buf (Elt Ideal) ((c : Thread nD τ).loc b)) (c : Dev nD) (t : Fin cfg0.N) (k : Fin 128) (q : Fin 64) :
    (iblk0 V c 1 t : Vec Ideal S128x64 .f32) (ix2 k q) = (V c main_arg2 : FVec Ideal S128x64 .f32) (ix2 k q) := by
  obtain ⟨-, -, e2, e3, -, -⟩ := idx_facts0 t
  unfold iblk0
  rw [View.read_apply]
  show V c main_arg2 _ = V c main_arg2 _
  congr 1
  funext a
  apply Fin.ext
  match a with
  | ⟨0, _⟩ => show win0_1.index t (0 : Fin 2) * 128 + 1 * k.val = k.val; rw [e2]; omega
  | ⟨1, _⟩ => show win0_1.index t (1 : Fin 2) * 64 + 1 * q.val = q.val; rw [e3]; omega

set_option maxHeartbeats 400000 in
/-- What point t writes back is block t of the whole product. -/
theorem flushed0 (V : (c : Dev nD) → (b : Ref sig .tc) → Buf (Elt Ideal) ((c : Thread nD τ).loc b)) (c : Dev nD) (t : Fin cfg0.N) :
    (Gen.dat0 (F := Ideal) V c).flushed 2 t
      = ((cfg0.win 2).blk t).view.read (Elt Ideal) (Cert.Spec.lin (V c main_arg0) (V c main_arg2)) := by
  show (cfg0.win 2).cut (grid0.coords t) ((Gen.dat0 (F := Ideal) V c).after 2 t) = _
  rw [Gen.after0_2]
  unfold Gen.out0_2
  rw [View.canon_unit_zero lin_origin]
  simp only [View.ld_unit_zero (S := S10000x128) lin_origin, View.ld_unit_zero (S := S128x64) lin_origin]
  have ht : t.val < 10 := lt_of_lt_of_eq t.isLt N_0
  obtain ⟨-, -, -, -, e4, e5⟩ := idx_facts0 t
  have key : ∀ j : S10000x64.Idx, k0_pay1 (F := Ideal) (iblk0 V c 0 t) (iblk0 V c 1 t) j
      = Cert.Spec.lin (V c main_arg0) (V c main_arg2) (((cfg0.win 2).blk t).view.emb j) := by
    intro j
    obtain ⟨p, q, rfl⟩ : ∃ (p : Fin 10000) (q : Fin 64), j = ix2 p q := ⟨j 0, j 1, eq_ix2 j⟩
    have e : ((cfg0.win 2).blk t).view.emb (ix2 p q) = ix2 (⟨t.val * 10000 + p.val, by omega⟩ : Fin 100000) q :=
      funext fun a => Fin.ext (by
        match a with
        | ⟨0, _⟩ => show win0_2.index t (0 : Fin 2) * 10000 + 1 * p.val = t.val * 10000 + p.val; rw [e4]; omega
        | ⟨1, _⟩ => show win0_2.index t (1 : Fin 2) * 64 + 1 * q.val = q.val; rw [e5]; omega)
    refine Eq.trans ?_ (congrArg (Cert.Spec.lin (V c main_arg0) (V c main_arg2)) e).symm
    exact prod0_at (iblk0 V c 0 t) (iblk0 V c 1 t) (V c main_arg0) (V c main_arg2) p q ⟨t.val * 10000 + p.val, by omega⟩
      (fun k => read0_x V c t p k ⟨t.val * 10000 + p.val, by omega⟩ rfl) (fun k => read0_w V c t k q)
  exact funext key

/-- An index of the array lies in point t's block iff each coordinate lies in the block's range on its axis. -/
theorem mem_blk0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v33).slice (win0_2.rect t)).set ↔ _
  rw [View.set_slice_whole, Rect.mem_set_unit]
  exact Iff.rfl

set_option maxHeartbeats 400000 in
/-- Every entry of the array is written: row r belongs to the block of point r / 10000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hlt : (i 0).val / 10000 < cfg0.N := by rw [show cfg0.N = 10 from N_0]; omega
  obtain ⟨-, -, -, -, e4, e5⟩ := idx_facts0 ⟨(i 0).val / 10000, hlt⟩
  refine ⟨⟨(i 0).val / 10000, hlt⟩, flush0_2 _, ?_⟩
  rw [mem_blk0]
  intro a
  match a with
  | ⟨0, _⟩ =>
    show win0_2.index ⟨(i 0).val / 10000, hlt⟩ (0 : Fin 2) * 10000 ≤ (i 0).val
      ∧ (i 0).val < win0_2.index ⟨(i 0).val / 10000, hlt⟩ (0 : Fin 2) * 10000 + 10000
    rw [e4]
    show (i 0).val / 10000 * 10000 ≤ (i 0).val ∧ (i 0).val < (i 0).val / 10000 * 10000 + 10000
    omega
  | ⟨1, _⟩ =>
    show win0_2.index ⟨(i 0).val / 10000, hlt⟩ (1 : Fin 2) * 64 ≤ (i 1).val
      ∧ (i 1).val < win0_2.index ⟨(i 0).val / 10000, hlt⟩ (1 : Fin 2) * 64 + 64
    rw [e5]
    omega

/-- The first dense product: after the ten points the output array holds the product of the two whole arrays. -/
theorem lin0 (V : (c : Dev nD) → (b : Ref sig .tc) → Buf (Elt Ideal) ((c : Thread nD τ).loc b)) (c : Dev nD) :
    (Gen.dat0 (F := Ideal) V c).arrAt 2 cfg0.N = Cert.Spec.lin (V c main_arg0) (V c main_arg2) :=
  (Gen.dat0 (F := Ideal) V c).arrAt_eq_of_cover 2 (Cert.Spec.lin (V c main_arg0) (V c main_arg2))
    (fun t _ => flushed0 V c t) cover0

/-! ## The second product: 100000×64 by 64×64 -/

set_option maxHeartbeats 400000 in
/-- The second product's payload at an entry: with the identity reshape and the format change the identity and the accumulator zero,
    entry (p, q) of the block product is the sum over k of x0(p, k) · x1(k, q). -/
theorem pay2_apply (x0 : Vec Ideal S10000x64 .f32) (x1 : Vec Ideal S64x64 .f32) (p : Fin 10000) (q : Fin 64) :
    k2_pay1 (F := Ideal) x0 x1 (ix2 p q) = ∑ k : Fin 64, x0 (ix2 p k) * x1 (ix2 k q) := by
  unfold k2_pay1
  simp only [matmul]
  refine (Ideal.matmul_constant_zero_apply dot_S10000x64_S64x64_S10000x64_1_0_0_1_n_n none _ _ (ix2 p q)).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  rw [truncf_apply, truncf_apply, shapeCast_self]
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ =>
      show (dot_S10000x64_S64x64_S10000x64_1_0_0_1_n_n.lhsIdx (ix2 p q) _ 0).val = p.val
      unfold DotDims.lhsIdx
      rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
      rfl
    | ⟨1, _⟩ => exact (dot_S10000x64_S64x64_S10000x64_1_0_0_1_n_n.lhsIdx_val_of_single rfl (ix2 p q) _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (dot_S10000x64_S64x64_S10000x64_1_0_0_1_n_n.rhsIdx_val_of_single rfl (ix2 p q) _).trans hk
    | ⟨1, _⟩ =>
      show (dot_S10000x64_S64x64_S10000x64_1_0_0_1_n_n.rhsIdx (ix2 p q) _ 1).val = q.val
      unfold DotDims.rhsIdx
      rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
      rfl)
  rw [el, er]

/-- The block product agrees with the whole product wherever the block's operands are the corresponding
    rows of the whole operands. -/
theorem prod2_at (x0 : Vec Ideal S10000x64 .f32) (x1 : Vec Ideal S64x64 .f32)
    (A : FVec Ideal S100000x64 .f32) (W : FVec Ideal S64x64 .f32)
    (p : Fin 10000) (q : Fin 64) (r : Fin 100000)
    (h0 : ∀ k : Fin 64, x0 (ix2 p k) = A (ix2 r k)) (h1 : ∀ k : Fin 64, x1 (ix2 k q) = W (ix2 k q)) :
    k2_pay1 (F := Ideal) x0 x1 (ix2 p q) = Cert.Spec.lin A W (ix2 r q) := by
  rw [pay2_apply, Cert.Spec.lin_apply]
  show _ = ∑ k : Fin 64, A (ix2 r k) * W (ix2 k q)
  exact Finset.sum_congr rfl fun k _ => by rw [h0 k, h1 k]

/-- The block index of each window at each of the ten points: the row operands move with the point, the
    weights stay. -/
theorem idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

set_option maxHeartbeats 400000 in
/-- Row p of the point's block of the first operand is row 10000·t + p of the array. -/
theorem read2_x (V : (c : Dev nD) → (b : Ref sig .tc) → Buf (Elt Ideal) ((c : Thread nD τ).loc b)) (c : Dev nD) (t : Fin cfg2.N) (p : Fin 10000) (k : Fin 64) (r : Fin 100000)
    (hr : r.val = t.val * 10000 + p.val) :
    (iblk2 V c 0 t : Vec Ideal S10000x64 .f32) (ix2 p k) = (V c main_v47 : FVec Ideal S100000x64 .f32) (ix2 r k) := by
  obtain ⟨e0, e1, -, -, -, -⟩ := idx_facts2 t
  unfold iblk2
  rw [View.read_apply]
  show V c main_v47 _ = V c main_v47 _
  congr 1
  funext a
  apply Fin.ext
  match a with
  | ⟨0, _⟩ => show win2_0.index t (0 : Fin 2) * 10000 + 1 * p.val = r.val; rw [e0, hr]; omega
  | ⟨1, _⟩ => show win2_0.index t (1 : Fin 2) * 64 + 1 * k.val = k.val; rw [e1]; omega

set_option maxHeartbeats 400000 in
/-- The weights' block is the whole array at every point. -/
theorem read2_w (V : (c : Dev nD) → (b : Ref sig .tc) → Buf (Elt Ideal) ((c : Thread nD τ).loc b)) (c : Dev nD) (t : Fin cfg2.N) (k : Fin 64) (q : Fin 64) :
    (iblk2 V c 1 t : Vec Ideal S64x64 .f32) (ix2 k q) = (V c main_arg4 : FVec Ideal S64x64 .f32) (ix2 k q) := by
  obtain ⟨-, -, e2, e3, -, -⟩ := idx_facts2 t
  unfold iblk2
  rw [View.read_apply]
  show V c main_arg4 _ = V c main_arg4 _
  congr 1
  funext a
  apply Fin.ext
  match a with
  | ⟨0, _⟩ => show win2_1.index t (0 : Fin 2) * 64 + 1 * k.val = k.val; rw [e2]; omega
  | ⟨1, _⟩ => show win2_1.index t (1 : Fin 2) * 64 + 1 * q.val = q.val; rw [e3]; omega

set_option maxHeartbeats 400000 in
/-- What point t writes back is block t of the whole product. -/
theorem flushed2 (V : (c : Dev nD) → (b : Ref sig .tc) → Buf (Elt Ideal) ((c : Thread nD τ).loc b)) (c : Dev nD) (t : Fin cfg2.N) :
    (Gen.dat2 (F := Ideal) V c).flushed 2 t
      = ((cfg2.win 2).blk t).view.read (Elt Ideal) (Cert.Spec.lin (V c main_v47) (V c main_arg4)) := by
  show (cfg2.win 2).cut (grid2.coords t) ((Gen.dat2 (F := Ideal) V c).after 2 t) = _
  rw [Gen.after2_2]
  unfold Gen.out2_2
  rw [View.canon_unit_zero lin_origin]
  simp only [View.ld_unit_zero (S := S10000x64) lin_origin, View.ld_unit_zero (S := S64x64) lin_origin]
  have ht : t.val < 10 := lt_of_lt_of_eq t.isLt N_2
  obtain ⟨-, -, -, -, e4, e5⟩ := idx_facts2 t
  have key : ∀ j : S10000x64.Idx, k2_pay1 (F := Ideal) (iblk2 V c 0 t) (iblk2 V c 1 t) j
      = Cert.Spec.lin (V c main_v47) (V c main_arg4) (((cfg2.win 2).blk t).view.emb j) := by
    intro j
    obtain ⟨p, q, rfl⟩ : ∃ (p : Fin 10000) (q : Fin 64), j = ix2 p q := ⟨j 0, j 1, eq_ix2 j⟩
    have e : ((cfg2.win 2).blk t).view.emb (ix2 p q) = ix2 (⟨t.val * 10000 + p.val, by omega⟩ : Fin 100000) q :=
      funext fun a => Fin.ext (by
        match a with
        | ⟨0, _⟩ => show win2_2.index t (0 : Fin 2) * 10000 + 1 * p.val = t.val * 10000 + p.val; rw [e4]; omega
        | ⟨1, _⟩ => show win2_2.index t (1 : Fin 2) * 64 + 1 * q.val = q.val; rw [e5]; omega)
    refine Eq.trans ?_ (congrArg (Cert.Spec.lin (V c main_v47) (V c main_arg4)) e).symm
    exact prod2_at (iblk2 V c 0 t) (iblk2 V c 1 t) (V c main_v47) (V c main_arg4) p q ⟨t.val * 10000 + p.val, by omega⟩
      (fun k => read2_x V c t p k ⟨t.val * 10000 + p.val, by omega⟩ rfl) (fun k => read2_w V c t k q)
  exact funext key

/-- An index of the array lies in point t's block iff each coordinate lies in the block's range on its axis. -/
theorem mem_blk2 (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v48).slice (win2_2.rect t)).set ↔ _
  rw [View.set_slice_whole, Rect.mem_set_unit]
  exact Iff.rfl

set_option maxHeartbeats 400000 in
/-- Every entry of the array is written: row r belongs to the block of point r / 10000. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hlt : (i 0).val / 10000 < cfg2.N := by rw [show cfg2.N = 10 from N_2]; omega
  obtain ⟨-, -, -, -, e4, e5⟩ := idx_facts2 ⟨(i 0).val / 10000, hlt⟩
  refine ⟨⟨(i 0).val / 10000, hlt⟩, flush2_2 _, ?_⟩
  rw [mem_blk2]
  intro a
  match a with
  | ⟨0, _⟩ =>
    show win2_2.index ⟨(i 0).val / 10000, hlt⟩ (0 : Fin 2) * 10000 ≤ (i 0).val
      ∧ (i 0).val < win2_2.index ⟨(i 0).val / 10000, hlt⟩ (0 : Fin 2) * 10000 + 10000
    rw [e4]
    show (i 0).val / 10000 * 10000 ≤ (i 0).val ∧ (i 0).val < (i 0).val / 10000 * 10000 + 10000
    omega
  | ⟨1, _⟩ =>
    show win2_2.index ⟨(i 0).val / 10000, hlt⟩ (1 : Fin 2) * 64 ≤ (i 1).val
      ∧ (i 1).val < win2_2.index ⟨(i 0).val / 10000, hlt⟩ (1 : Fin 2) * 64 + 64
    rw [e5]
    omega

/-- The second dense product: after the ten points the output array holds the product of the two whole arrays. -/
theorem lin2 (V : (c : Dev nD) → (b : Ref sig .tc) → Buf (Elt Ideal) ((c : Thread nD τ).loc b)) (c : Dev nD) :
    (Gen.dat2 (F := Ideal) V c).arrAt 2 cfg2.N = Cert.Spec.lin (V c main_v47) (V c main_arg4) :=
  (Gen.dat2 (F := Ideal) V c).arrAt_eq_of_cover 2 (Cert.Spec.lin (V c main_v47) (V c main_arg4))
    (fun t _ => flushed2 V c t) cover2

end Cert.KernelIdeal.Blocks

end
-- ==== Proof.ActBlocks.lean ====
/-
  The bias-and-rectifier steps of the kernel, block by block and then as whole arrays.

  Each of the two steps walks a 100000 × 64 array in ten blocks of 10000 rows. On the block of point t it
  adds the one row of biases b to every row of the block and applies the per-channel leaky rectifier:
  with s = a(r, o) + b(o), the entry written is s where s ≥ 0 and α(o) · s elsewhere. Row p of block t is
  row 10000 · t + p of the array, and the bias and slope rows are the same at every point, so what point t
  writes back is block t of ONE function of the whole arrays, Spec.act a b α. The ten blocks cover every row
  (row r lies in block r / 10000), hence the array the step leaves is Spec.act a b α.
-/
import proofs.«152368_j89292370084351_1_alg».proof.Proof.Gen.KernelIdeal.Frame
import proofs.«152368_j89292370084351_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)

/-- The zero offsets of a whole-block access, however spelt. -/
theorem offsets_zero : (![0, 0] : Fin 2 → Nat) = fun _ => 0 := funext fun a => by fin_cases a <;> rfl

/-! # The first step (region 1) -/

/-! ## One block's arithmetic, entry by entry -/

/-- Entry (p, q) of what the body stores: s = x(p, q) + b(0, q), kept where s ≥ 0 and scaled by α(0, q) elsewhere. -/
theorem stored1_apply (x : Vec Ideal S10000x64 .f32) (b α : Vec Ideal S1x64 .f32) (p : Fin 10000) (q : Fin 64) :
    Gen.k1_pay1 x b α (ix2 p q)
      = Scalar.select (FloatOps.cmpf .oge (x (ix2 p q) + b (ix2 (0 : Fin 1) q)) (Ideal.ofBits .f32 0x00000000#32))
          (x (ix2 p q) + b (ix2 (0 : Fin 1) q)) (α (ix2 (0 : Fin 1) q) * (x (ix2 p q) + b (ix2 (0 : Fin 1) q))) := by
  unfold Gen.k1_pay1
  simp only [select_apply, cmpf_apply, mulf_apply, addf_apply, broadcast_apply, shapeCast_self, broadcastTo_1b_ab_apply]
  rfl

/-- The same entry against whole arrays: if the block's entry (p, q) is the array's entry (r, q) and the two rows are
    the bias and slope vectors, the stored entry is the rectified array's entry (r, q). -/
theorem stored1_eq_act (x : Vec Ideal S10000x64 .f32) (b α : Vec Ideal S1x64 .f32)
    (A : FVec Ideal S100000x64 .f32) (B Al : FVec Ideal ⟨1, ![64]⟩ .f32)
    (p : Fin 10000) (q : Fin 64) (r : Fin 100000)
    (h0 : x (ix2 p q) = A (ix2 r q)) (h1 : b (ix2 (0 : Fin 1) q) = B (ix1 q)) (h2 : α (ix2 (0 : Fin 1) q) = Al (ix1 q)) :
    Gen.k1_pay1 x b α (ix2 p q) = Cert.Spec.act A B Al (ix2 r q) := by
  rw [stored1_apply, Cert.Spec.act_apply, h0, h1, h2]

/-! ## Region 1: where each block sits in its array -/

/-- The printed index maps over the ten points: the two large windows move together, one block of rows per
    point; the two one-row windows stay at their only block. -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- A point is one of ten. -/
theorem point_lt1 (t : Fin cfg1.N) : t.val < 10 := Nat.lt_of_lt_of_eq t.isLt N_1

/-- Row p of the output's block at point t is row 10000 · t + p of the array. -/
theorem out_block_emb1 (t : Fin cfg1.N) (p : Fin 10000) (q : Fin 64) :
    ((cfg1.win 3).blk t).view.emb (ix2 p q)
      = (ix2 (⟨10000 * t.val + p.val, by have := point_lt1 t; have := p.isLt; omega⟩ : Fin 100000) q : S100000x64.Idx) := by
  obtain ⟨-, -, -, -, -, -, e6, e7⟩ := index_facts1 t
  funext a; apply Fin.ext
  match a with
  | ⟨0, _⟩ => show win1_3.index t (0 : Fin 2) * 10000 + 1 * p.val = 10000 * t.val + p.val; omega
  | ⟨1, _⟩ => show win1_3.index t (1 : Fin 2) * 64 + 1 * q.val = q.val; omega

/-- The input's block at point t holds the same rows of its array. -/
theorem rows_read1 (V : (c : Dev nD) → (b : Ref sig .tc) → Buf (Elt Ideal) ((c : Thread nD τ).loc b)) (c : Dev nD)
    (t : Fin cfg1.N) (p : Fin 10000) (q : Fin 64) :
    (Gen.iblk1 (F := Ideal) V c 0 t : Vec Ideal S10000x64 .f32) (ix2 p q)
      = V c main_v46 (ix2 (⟨10000 * t.val + p.val, by have := point_lt1 t; have := p.isLt; omega⟩ : Fin 100000) q : S100000x64.Idx) := by
  obtain ⟨e0, e1, -, -, -, -, -, -⟩ := index_facts1 t
  unfold Gen.iblk1
  rw [View.read_apply]
  show V c main_v46 (((cfg1.win 0).blk t).view.emb (ix2 p q)) = V c main_v46 _
  refine congrArg (V c main_v46) ?_
  funext a; apply Fin.ext
  match a with
  | ⟨0, _⟩ => show win1_0.index t (0 : Fin 2) * 10000 + 1 * p.val = 10000 * t.val + p.val; omega
  | ⟨1, _⟩ => show win1_0.index t (1 : Fin 2) * 64 + 1 * q.val = q.val; omega

/-- The bias window's block is, at every point, the whole one-row array. -/
theorem bias_read1 (V : (c : Dev nD) → (b : Ref sig .tc) → Buf (Elt Ideal) ((c : Thread nD τ).loc b)) (c : Dev nD)
    (t : Fin cfg1.N) (q : Fin 64) :
    (Gen.iblk1 (F := Ideal) V c 1 t : Vec Ideal S1x64 .f32) (ix2 (0 : Fin 1) q) = V c main_v30 (ix2 (0 : Fin 1) q : S1x64.Idx) := by
  obtain ⟨-, -, e2, e3, -, -, -, -⟩ := index_facts1 t
  unfold Gen.iblk1
  rw [View.read_apply]
  show V c main_v30 (((cfg1.win 1).blk t).view.emb (ix2 (0 : Fin 1) q)) = V c main_v30 _
  refine congrArg (V c main_v30) ?_
  funext a; apply Fin.ext
  match a with
  | ⟨0, _⟩ => show win1_1.index t (0 : Fin 2) * 1 + 1 * 0 = 0; omega
  | ⟨1, _⟩ => show win1_1.index t (1 : Fin 2) * 64 + 1 * q.val = q.val; omega

/-- So is the slope window's. -/
theorem slope_read1 (V : (c : Dev nD) → (b : Ref sig .tc) → Buf (Elt Ideal) ((c : Thread nD τ).loc b)) (c : Dev nD)
    (t : Fin cfg1.N) (q : Fin 64) :
    (Gen.iblk1 (F := Ideal) V c 2 t : Vec Ideal S1x64 .f32) (ix2 (0 : Fin 1) q) = V c main_v32 (ix2 (0 : Fin 1) q : S1x64.Idx) := by
  obtain ⟨-, -, -, -, e4, e5, -, -⟩ := index_facts1 t
  unfold Gen.iblk1
  rw [View.read_apply]
  show V c main_v32 (((cfg1.win 2).blk t).view.emb (ix2 (0 : Fin 1) q)) = V c main_v32 _
  refine congrArg (V c main_v32) ?_
  funext a; apply Fin.ext
  match a with
  | ⟨0, _⟩ => show win1_2.index t (0 : Fin 2) * 1 + 1 * 0 = 0; omega
  | ⟨1, _⟩ => show win1_2.index t (1 : Fin 2) * 64 + 1 * q.val = q.val; omega

/-! ## Region 1: what a point writes back, the cover, the array -/

/-- What point t writes back is block t of the rectified whole array. -/
theorem written1 (V : (c : Dev nD) → (b : Ref sig .tc) → Buf (Elt Ideal) ((c : Thread nD τ).loc b)) (c : Dev nD)
    (t : Fin cfg1.N) :
    (Gen.dat1 (F := Ideal) V c).flushed 3 t
      = ((cfg1.win 3).blk t).view.read (Elt Ideal)
          (Cert.Spec.act (V c main_v46) (fun j => V c main_v30 (ix2 (0 : Fin 1) (j 0))) (fun j => V c main_v32 (ix2 (0 : Fin 1) (j 0)))) := by
  show (cfg1.win 3).cut (grid1.coords t) ((Gen.dat1 (F := Ideal) V c).after 3 t) = _
  rw [Gen.after1_3]
  unfold Gen.out1_3
  rw [View.canon_unit_zero offsets_zero]
  simp only [View.ld_unit_zero (S := S10000x64) offsets_zero, View.ld_unit_zero (S := S1x64) offsets_zero]
  funext j
  obtain ⟨p, q, rfl⟩ : ∃ (p : Fin 10000) (q : Fin 64), j = ix2 p q := ⟨j 0, j 1, eq_ix2 j⟩
  rw [View.read_apply, out_block_emb1 t p q]
  exact stored1_eq_act (Gen.iblk1 (F := Ideal) V c 0 t) (Gen.iblk1 (F := Ideal) V c 1 t) (Gen.iblk1 (F := Ideal) V c 2 t)
    (V c main_v46) (fun j => V c main_v30 (ix2 (0 : Fin 1) (j 0))) (fun j => V c main_v32 (ix2 (0 : Fin 1) (j 0)))
    p q ⟨10000 * t.val + p.val, by have := point_lt1 t; have := p.isLt; omega⟩
    (rows_read1 V c t p q) (bias_read1 V c t q) (slope_read1 V c t q)

/-- An index of the array is in point t's block iff each coordinate is in the block's range on its axis. -/
theorem mem_out_block1 (t : Fin cfg1.N) (i : S100000x64.Idx) :
    i ∈ ((cfg1.win 3).blk t).view.set
      ↔ ∀ a : Fin 2, win1_3.index t a * S10000x64.size a ≤ (i a).val ∧ (i a).val < win1_3.index t a * S10000x64.size a + S10000x64.size a := by
  show i ∈ ((View.whole main_v47).slice (win1_3.rect t)).set ↔ _
  rw [View.set_slice_whole, Rect.mem_set_unit]
  exact Iff.rfl

/-- Every row lies in some point's block: row r in the block of point r / 10000. -/
theorem covered1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have ht : (i 0).val / 10000 < cfg1.N := Nat.lt_of_lt_of_eq (by omega : (i 0).val / 10000 < 10) N_1.symm
  obtain ⟨-, -, -, -, -, -, e6, e7⟩ := index_facts1 ⟨(i 0).val / 10000, ht⟩
  refine ⟨⟨(i 0).val / 10000, ht⟩, Gen.flush1_3 _, ?_⟩
  rw [mem_out_block1]
  intro a
  match a with
  | ⟨0, _⟩ =>
    show win1_3.index ⟨(i 0).val / 10000, ht⟩ (0 : Fin 2) * 10000 ≤ (i 0).val
      ∧ (i 0).val < win1_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win1_3.index ⟨(i 0).val / 10000, ht⟩ (1 : Fin 2) * 64 ≤ (i 1).val
      ∧ (i 1).val < win1_3.index ⟨(i 0).val / 10000, ht⟩ (1 : Fin 2) * 64 + 64
    rw [e7]; omega

/-- The array the first bias-and-rectifier step leaves is the rectified whole array. -/
theorem act1 (V : (c : Dev nD) → (b : Ref sig .tc) → Buf (Elt Ideal) ((c : Thread nD τ).loc b)) (c : Dev nD) :
    (Gen.dat1 (F := Ideal) V c).arrAt 3 cfg1.N
      = Cert.Spec.act (V c main_v46) (fun j => V c main_v30 (ix2 0 (j 0))) (fun j => V c main_v32 (ix2 0 (j 0))) :=
  (Gen.dat1 (F := Ideal) V c).arrAt_eq_of_cover 3 _ (fun t _ => written1 V c t) covered1

/-! # The second step (region 3): the same body on the second layer's arrays -/

/-! ## One block's arithmetic, entry by entry -/

/-- Entry (p, q) of what the body stores: s = x(p, q) + b(0, q), kept where s ≥ 0 and scaled by α(0, q) elsewhere. -/
theorem stored3_apply (x : Vec Ideal S10000x64 .f32) (b α : Vec Ideal S1x64 .f32) (p : Fin 10000) (q : Fin 64) :
    Gen.k3_pay1 x b α (ix2 p q)
      = Scalar.select (FloatOps.cmpf .oge (x (ix2 p q) + b (ix2 (0 : Fin 1) q)) (Ideal.ofBits .f32 0x00000000#32))
          (x (ix2 p q) + b (ix2 (0 : Fin 1) q)) (α (ix2 (0 : Fin 1) q) * (x (ix2 p q) + b (ix2 (0 : Fin 1) q))) := by
  unfold Gen.k3_pay1
  simp only [select_apply, cmpf_apply, mulf_apply, addf_apply, broadcast_apply, shapeCast_self, broadcastTo_1b_ab_apply]
  rfl

/-- The same entry against whole arrays: if the block's entry (p, q) is the array's entry (r, q) and the two rows are
    the bias and slope vectors, the stored entry is the rectified array's entry (r, q). -/
theorem stored3_eq_act (x : Vec Ideal S10000x64 .f32) (b α : Vec Ideal S1x64 .f32)
    (A : FVec Ideal S100000x64 .f32) (B Al : FVec Ideal ⟨1, ![64]⟩ .f32)
    (p : Fin 10000) (q : Fin 64) (r : Fin 100000)
    (h0 : x (ix2 p q) = A (ix2 r q)) (h1 : b (ix2 (0 : Fin 1) q) = B (ix1 q)) (h2 : α (ix2 (0 : Fin 1) q) = Al (ix1 q)) :
    Gen.k3_pay1 x b α (ix2 p q) = Cert.Spec.act A B Al (ix2 r q) := by
  rw [stored3_apply, Cert.Spec.act_apply, h0, h1, h2]

/-! ## Region 3: where each block sits in its array -/

/-- The printed index maps over the ten points: the two large windows move together, one block of rows per
    point; the two one-row windows stay at their only block. -/
theorem index_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- A point is one of ten. -/
theorem point_lt3 (t : Fin cfg3.N) : t.val < 10 := Nat.lt_of_lt_of_eq t.isLt N_3

/-- Row p of the output's block at point t is row 10000 · t + p of the array. -/
theorem out_block_emb3 (t : Fin cfg3.N) (p : Fin 10000) (q : Fin 64) :
    ((cfg3.win 3).blk t).view.emb (ix2 p q)
      = (ix2 (⟨10000 * t.val + p.val, by have := point_lt3 t; have := p.isLt; omega⟩ : Fin 100000) q : S100000x64.Idx) := by
  obtain ⟨-, -, -, -, -, -, e6, e7⟩ := index_facts3 t
  funext a; apply Fin.ext
  match a with
  | ⟨0, _⟩ => show win3_3.index t (0 : Fin 2) * 10000 + 1 * p.val = 10000 * t.val + p.val; omega
  | ⟨1, _⟩ => show win3_3.index t (1 : Fin 2) * 64 + 1 * q.val = q.val; omega

/-- The input's block at point t holds the same rows of its array. -/
theorem rows_read3 (V : (c : Dev nD) → (b : Ref sig .tc) → Buf (Elt Ideal) ((c : Thread nD τ).loc b)) (c : Dev nD)
    (t : Fin cfg3.N) (p : Fin 10000) (q : Fin 64) :
    (Gen.iblk3 (F := Ideal) V c 0 t : Vec Ideal S10000x64 .f32) (ix2 p q)
      = V c main_v61 (ix2 (⟨10000 * t.val + p.val, by have := point_lt3 t; have := p.isLt; omega⟩ : Fin 100000) q : S100000x64.Idx) := by
  obtain ⟨e0, e1, -, -, -, -, -, -⟩ := index_facts3 t
  unfold Gen.iblk3
  rw [View.read_apply]
  show V c main_v61 (((cfg3.win 0).blk t).view.emb (ix2 p q)) = V c main_v61 _
  refine congrArg (V c main_v61) ?_
  funext a; apply Fin.ext
  match a with
  | ⟨0, _⟩ => show win3_0.index t (0 : Fin 2) * 10000 + 1 * p.val = 10000 * t.val + p.val; omega
  | ⟨1, _⟩ => show win3_0.index t (1 : Fin 2) * 64 + 1 * q.val = q.val; omega

/-- The bias window's block is, at every point, the whole one-row array. -/
theorem bias_read3 (V : (c : Dev nD) → (b : Ref sig .tc) → Buf (Elt Ideal) ((c : Thread nD τ).loc b)) (c : Dev nD)
    (t : Fin cfg3.N) (q : Fin 64) :
    (Gen.iblk3 (F := Ideal) V c 1 t : Vec Ideal S1x64 .f32) (ix2 (0 : Fin 1) q) = V c main_v31 (ix2 (0 : Fin 1) q : S1x64.Idx) := by
  obtain ⟨-, -, e2, e3, -, -, -, -⟩ := index_facts3 t
  unfold Gen.iblk3
  rw [View.read_apply]
  show V c main_v31 (((cfg3.win 1).blk t).view.emb (ix2 (0 : Fin 1) q)) = V c main_v31 _
  refine congrArg (V c main_v31) ?_
  funext a; apply Fin.ext
  match a with
  | ⟨0, _⟩ => show win3_1.index t (0 : Fin 2) * 1 + 1 * 0 = 0; omega
  | ⟨1, _⟩ => show win3_1.index t (1 : Fin 2) * 64 + 1 * q.val = q.val; omega

/-- So is the slope window's. -/
theorem slope_read3 (V : (c : Dev nD) → (b : Ref sig .tc) → Buf (Elt Ideal) ((c : Thread nD τ).loc b)) (c : Dev nD)
    (t : Fin cfg3.N) (q : Fin 64) :
    (Gen.iblk3 (F := Ideal) V c 2 t : Vec Ideal S1x64 .f32) (ix2 (0 : Fin 1) q) = V c main_v32 (ix2 (0 : Fin 1) q : S1x64.Idx) := by
  obtain ⟨-, -, -, -, e4, e5, -, -⟩ := index_facts3 t
  unfold Gen.iblk3
  rw [View.read_apply]
  show V c main_v32 (((cfg3.win 2).blk t).view.emb (ix2 (0 : Fin 1) q)) = V c main_v32 _
  refine congrArg (V c main_v32) ?_
  funext a; apply Fin.ext
  match a with
  | ⟨0, _⟩ => show win3_2.index t (0 : Fin 2) * 1 + 1 * 0 = 0; omega
  | ⟨1, _⟩ => show win3_2.index t (1 : Fin 2) * 64 + 1 * q.val = q.val; omega

/-! ## Region 3: what a point writes back, the cover, the array -/

/-- What point t writes back is block t of the rectified whole array. -/
theorem written3 (V : (c : Dev nD) → (b : Ref sig .tc) → Buf (Elt Ideal) ((c : Thread nD τ).loc b)) (c : Dev nD)
    (t : Fin cfg3.N) :
    (Gen.dat3 (F := Ideal) V c).flushed 3 t
      = ((cfg3.win 3).blk t).view.read (Elt Ideal)
          (Cert.Spec.act (V c main_v61) (fun j => V c main_v31 (ix2 (0 : Fin 1) (j 0))) (fun j => V c main_v32 (ix2 (0 : Fin 1) (j 0)))) := by
  show (cfg3.win 3).cut (grid3.coords t) ((Gen.dat3 (F := Ideal) V c).after 3 t) = _
  rw [Gen.after3_3]
  unfold Gen.out3_3
  rw [View.canon_unit_zero offsets_zero]
  simp only [View.ld_unit_zero (S := S10000x64) offsets_zero, View.ld_unit_zero (S := S1x64) offsets_zero]
  funext j
  obtain ⟨p, q, rfl⟩ : ∃ (p : Fin 10000) (q : Fin 64), j = ix2 p q := ⟨j 0, j 1, eq_ix2 j⟩
  rw [View.read_apply, out_block_emb3 t p q]
  exact stored3_eq_act (Gen.iblk3 (F := Ideal) V c 0 t) (Gen.iblk3 (F := Ideal) V c 1 t) (Gen.iblk3 (F := Ideal) V c 2 t)
    (V c main_v61) (fun j => V c main_v31 (ix2 (0 : Fin 1) (j 0))) (fun j => V c main_v32 (ix2 (0 : Fin 1) (j 0)))
    p q ⟨10000 * t.val + p.val, by have := point_lt3 t; have := p.isLt; omega⟩
    (rows_read3 V c t p q) (bias_read3 V c t q) (slope_read3 V c t q)

/-- An index of the array is in point t's block iff each coordinate is in the block's range on its axis. -/
theorem mem_out_block3 (t : Fin cfg3.N) (i : S100000x64.Idx) :
    i ∈ ((cfg3.win 3).blk t).view.set
      ↔ ∀ a : Fin 2, win3_3.index t a * S10000x64.size a ≤ (i a).val ∧ (i a).val < win3_3.index t a * S10000x64.size a + S10000x64.size a := by
  show i ∈ ((View.whole main_v62).slice (win3_3.rect t)).set ↔ _
  rw [View.set_slice_whole, Rect.mem_set_unit]
  exact Iff.rfl

/-- Every row lies in some point's block: row r in the block of point r / 10000. -/
theorem covered3 (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have ht : (i 0).val / 10000 < cfg3.N := Nat.lt_of_lt_of_eq (by omega : (i 0).val / 10000 < 10) N_3.symm
  obtain ⟨-, -, -, -, -, -, e6, e7⟩ := index_facts3 ⟨(i 0).val / 10000, ht⟩
  refine ⟨⟨(i 0).val / 10000, ht⟩, Gen.flush3_3 _, ?_⟩
  rw [mem_out_block3]
  intro a
  match a with
  | ⟨0, _⟩ =>
    show win3_3.index ⟨(i 0).val / 10000, ht⟩ (0 : Fin 2) * 10000 ≤ (i 0).val
      ∧ (i 0).val < win3_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win3_3.index ⟨(i 0).val / 10000, ht⟩ (1 : Fin 2) * 64 ≤ (i 1).val
      ∧ (i 1).val < win3_3.index ⟨(i 0).val / 10000, ht⟩ (1 : Fin 2) * 64 + 64
    rw [e7]; omega

/-- The array the second bias-and-rectifier step leaves is the rectified whole array. -/
theorem act3 (V : (c : Dev nD) → (b : Ref sig .tc) → Buf (Elt Ideal) ((c : Thread nD τ).loc b)) (c : Dev nD) :
    (Gen.dat3 (F := Ideal) V c).arrAt 3 cfg3.N
      = Cert.Spec.act (V c main_v61) (fun j => V c main_v31 (ix2 0 (j 0))) (fun j => V c main_v32 (ix2 0 (j 0))) :=
  (Gen.dat3 (F := Ideal) V c).arrAt_eq_of_cover 3 _ (fun t _ => written3 V c t) covered3

end Cert.KernelIdeal.Blocks

end
-- ==== Proof.RefRun.lean ====
/-
The reference function is a straight line of ninety-four whole-array operations and no kernel. This file
lists them in order as seven consecutive stages (the first cut once more, after the edge rows),

  * the preparation: the two rows of the edge array with one self-loop per node appended, every node's
    degree (ones scatter-added at the target row), its inverse square root (zero where the degree is not
    positive), and per edge the product of that quantity at its two ends;
  * a linear map (the features times the first weight matrix);
  * an aggregation (rows gathered at the sources, scaled edge by edge, scatter-added at the targets);
  * an activation (add a bias row; keep the non-negative entries, multiply the others by a slope row);
  * and the same three once more, with the second weight matrix and the second bias row,

shows that the printed function is exactly the line of these operations run in order, and concludes the
statement about executions: from any memory with zero counters every weakly fair execution terminates, the
result buffer holding what the fold of the operations over the launch contents leaves there, and the seven
argument buffers holding what they held at launch (no operation of the line writes an argument).
The fold is left folded: what it evaluates to is the subject of a separate file.
-/
import proofs.«152368_j89292370084351_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The edge rows: the two rows of the edge array, each with the self-loops 0 … N−1 appended. -/
abbrev opsP0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0),
    binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The normalisation: every node's degree (ones scatter-added at the target row), its inverse square root where the degree is positive and zero elsewhere, and per edge the product of that quantity at the edge's two (wrapped) ends. -/
abbrev opsP1 : List (HloOp τ sig (Elt F)) :=
  [ nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v5 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v5 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v5 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]

/-- The preparation: the edge rows, then the normalisation. -/
abbrev opsP : List (HloOp τ sig (Elt F)) := opsP0 ++ opsP1

/-- The first layer's linear map: the features times the first weight matrix. -/
abbrev opsD1 : List (HloOp τ sig (Elt F)) :=
  [ binary main_arg0 main_arg2 main_v30 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]

/-- The first layer's aggregation: gather the rows at the (wrapped) sources, scale each by its edge's coefficient, scatter-add them at the targets into zero. -/
abbrev opsM1 : List (HloOp τ sig (Elt F)) :=
  [ nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v5 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v5 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v5 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x64 ![0, 1] bcast_S1700000x1_S1700000x64_0_1 : (⟨S1700000x1, .f32⟩ : BufTy).Contents (Elt F) → (⟨S1700000x64, .f32⟩ : BufTy).Contents (Elt F)),
    binary main_v37 main_v39 main_v40 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- The first layer's activation: add the bias row, keep the non-negative entries and multiply the others by the slope row. -/
abbrev opsA1 : List (HloOp τ sig (Elt F)) :=
  [ unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)),
    nullary main_cst_9 (constant S_ .f32 0x00000000#32),
    unary main_cst_9 main_v47 (broadcastInDim S100000x64 ![] bcast_S_S100000x64 : (⟨S_, .f32⟩ : BufTy).Contents (Elt F) → (⟨S100000x64, .f32⟩ : BufTy).Contents (Elt F)),
    binary main_v46 main_v47 main_v48 (cmpf .oge : (⟨S100000x64, .f32⟩ : BufTy).Contents (Elt F) → (⟨S100000x64, .f32⟩ : BufTy).Contents (Elt F) → (⟨S100000x64, .i1⟩ : BufTy).Contents (Elt F)),
    unary main_arg6 main_v49 (broadcastInDim S1x64 ![1] bcast_S64_S1x64_1 : (⟨S64, .f32⟩ : BufTy).Contents (Elt F) → (⟨S1x64, .f32⟩ : BufTy).Contents (Elt F)),
    unary main_v49 main_v50 (broadcastInDim S100000x64 ![0, 1] bcast_S1x64_S100000x64_0_1 : (⟨S1x64, .f32⟩ : BufTy).Contents (Elt F) → (⟨S100000x64, .f32⟩ : BufTy).Contents (Elt F)),
    binary main_v50 main_v46 main_v51 (mulf : (⟨S100000x64, .f32⟩ : BufTy).Contents (Elt F) → (⟨S100000x64, .f32⟩ : BufTy).Contents (Elt F) → (⟨S100000x64, .f32⟩ : BufTy).Contents (Elt F)),
    TRef.ternary (TRef.of (T := ⟨S100000x64, .i1⟩) main_v48) (TRef.of (T := ⟨S100000x64, .f32⟩) main_v46) (TRef.of (T := ⟨S100000x64, .f32⟩) main_v51) (TRef.of (T := ⟨S100000x64, .f32⟩) main_v52) select ]

/-- The second layer's linear map: the first layer's output times the second weight matrix. -/
abbrev opsD2 : List (HloOp τ sig (Elt F)) :=
  [ binary main_v52 main_arg4 main_v53 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- The second layer's aggregation, as the first's. -/
abbrev opsM2 : List (HloOp τ sig (Elt F)) :=
  [ nullary main_c_10 (constantI S_ 32 0#32),
    unary main_c_10 main_v54 (broadcastInDim S1700000 ![] bcast_S_S1700000 : (⟨S_, .i32⟩ : BufTy).Contents (Elt F) → (⟨S1700000, .i32⟩ : BufTy).Contents (Elt F)),
    binary main_v5 main_v54 main_v55 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v56 (broadcastInDim S1700000 ![] bcast_S_S1700000 : (⟨S_, .i32⟩ : BufTy).Contents (Elt F) → (⟨S1700000, .i32⟩ : BufTy).Contents (Elt F)),
    binary main_v5 main_v56 main_v57 (addi : (⟨S1700000, .i32⟩ : BufTy).Contents (Elt F) → (⟨S1700000, .i32⟩ : BufTy).Contents (Elt F) → (⟨S1700000, .i32⟩ : BufTy).Contents (Elt F)),
    ternary main_v55 main_v57 main_v5 main_v58 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v58 main_v59 (broadcastInDim S1700000x1 ![0] bcast_S1700000_S1700000x1_0 : (⟨S1700000, .i32⟩ : BufTy).Contents (Elt F) → (⟨S1700000x1, .i32⟩ : BufTy).Contents (Elt F)),
    binary main_v53 main_v59 main_v60 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v61 (broadcastInDim S1700000x1 ![0] bcast_S1700000_S1700000x1_0 : (⟨S1700000, .f32⟩ : BufTy).Contents (Elt F) → (⟨S1700000x1, .f32⟩ : BufTy).Contents (Elt F)),
    unary main_v61 main_v62 (broadcastInDim S1700000x64 ![0, 1] bcast_S1700000x1_S1700000x64_0_1 : (⟨S1700000x1, .f32⟩ : BufTy).Contents (Elt F) → (⟨S1700000x64, .f32⟩ : BufTy).Contents (Elt F)),
    binary main_v60 main_v62 main_v63 (mulf : (⟨S1700000x64, .f32⟩ : BufTy).Contents (Elt F) → (⟨S1700000x64, .f32⟩ : BufTy).Contents (Elt F) → (⟨S1700000x64, .f32⟩ : BufTy).Contents (Elt F)),
    nullary main_cst_12 (constant S_ .f32 0x00000000#32),
    unary main_cst_12 main_v64 (broadcastInDim S100000x64 ![] bcast_S_S100000x64 : (⟨S_, .f32⟩ : BufTy).Contents (Elt F) → (⟨S100000x64, .f32⟩ : BufTy).Contents (Elt F)),
    unary main_v6 main_v65 (broadcastInDim S1700000x1 ![0] bcast_S1700000_S1700000x1_0 : (⟨S1700000, .i32⟩ : BufTy).Contents (Elt F) → (⟨S1700000x1, .i32⟩ : BufTy).Contents (Elt F)),
    ternary main_v64 main_v65 main_v63 main_v66 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- The second layer's activation, with the second bias and the same slope. -/
abbrev opsA2 : List (HloOp τ sig (Elt F)) :=
  [ unary main_arg5 main_v67 (broadcastInDim S1x64 ![1] bcast_S64_S1x64_1 : (⟨S64, .f32⟩ : BufTy).Contents (Elt F) → (⟨S1x64, .f32⟩ : BufTy).Contents (Elt F)),
    unary main_v67 main_v68 (broadcastInDim S100000x64 ![0, 1] bcast_S1x64_S100000x64_0_1 : (⟨S1x64, .f32⟩ : BufTy).Contents (Elt F) → (⟨S100000x64, .f32⟩ : BufTy).Contents (Elt F)),
    binary main_v66 main_v68 main_v69 (addf : (⟨S100000x64, .f32⟩ : BufTy).Contents (Elt F) → (⟨S100000x64, .f32⟩ : BufTy).Contents (Elt F) → (⟨S100000x64, .f32⟩ : BufTy).Contents (Elt F)),
    nullary main_cst_13 (constant S_ .f32 0x00000000#32),
    unary main_cst_13 main_v70 (broadcastInDim S100000x64 ![] bcast_S_S100000x64 : (⟨S_, .f32⟩ : BufTy).Contents (Elt F) → (⟨S100000x64, .f32⟩ : BufTy).Contents (Elt F)),
    binary main_v69 main_v70 main_v71 (cmpf .oge : (⟨S100000x64, .f32⟩ : BufTy).Contents (Elt F) → (⟨S100000x64, .f32⟩ : BufTy).Contents (Elt F) → (⟨S100000x64, .i1⟩ : BufTy).Contents (Elt F)),
    unary main_arg6 main_v72 (broadcastInDim S1x64 ![1] bcast_S64_S1x64_1 : (⟨S64, .f32⟩ : BufTy).Contents (Elt F) → (⟨S1x64, .f32⟩ : BufTy).Contents (Elt F)),
    unary main_v72 main_v73 (broadcastInDim S100000x64 ![0, 1] bcast_S1x64_S100000x64_0_1 : (⟨S1x64, .f32⟩ : BufTy).Contents (Elt F) → (⟨S100000x64, .f32⟩ : BufTy).Contents (Elt F)),
    binary main_v73 main_v69 main_v74 (mulf : (⟨S100000x64, .f32⟩ : BufTy).Contents (Elt F) → (⟨S100000x64, .f32⟩ : BufTy).Contents (Elt F) → (⟨S100000x64, .f32⟩ : BufTy).Contents (Elt F)),
    TRef.ternary (TRef.of (T := ⟨S100000x64, .i1⟩) main_v71) (TRef.of (T := ⟨S100000x64, .f32⟩) main_v69) (TRef.of (T := ⟨S100000x64, .f32⟩) main_v74) (TRef.of (T := ⟨S100000x64, .f32⟩) main_v75) select ]

/-- The whole line: the seven stages one after the other. -/
abbrev ops : List (HloOp τ sig (Elt F)) := opsP ++ (opsD1 ++ (opsM1 ++ (opsA1 ++ (opsD2 ++ (opsM2 ++ opsA2)))))

/-- Running two lines one after the other from `V` is running the second from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 8192 in
set_option maxHeartbeats 4000000 in
/-- The printed function is the line of the ninety-four operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-! ### Every operation touches TensorCore buffers only -/

theorem opsP0_sub : (opsP0 : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub ..⟩
theorem opsP1_sub : (opsP1 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem opsP_sub : (opsP : List (HloOp τ sig (Elt F))).Forall fun op => op.bufs ⊆ tcRefs τ sig :=
  List.forall_append.mpr ⟨opsP0_sub, opsP1_sub⟩
theorem opsD1_sub : (opsD1 : List (HloOp τ sig (Elt F))).Forall fun op => op.bufs ⊆ tcRefs τ sig :=
  binary_bufs_sub ..
theorem opsM1_sub : (opsM1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem opsA1_sub : (opsA1 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., binary_bufs_sub .., ternary_bufs_sub ..⟩
theorem opsD2_sub : (opsD2 : List (HloOp τ sig (Elt F))).Forall fun op => op.bufs ⊆ tcRefs τ sig :=
  binary_bufs_sub ..
theorem opsM2_sub : (opsM2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem opsA2_sub : (opsA2 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., binary_bufs_sub .., ternary_bufs_sub ..⟩

/-! ### What each stage writes, and what it therefore keeps -/

/-- The buffers the operations of `opsP0` write. -/
abbrev opsP0_W : List (Ref sig .tc) := [main_v0, main_v1, main_v2, main_v3, main_v4, main_v5, main_v6]
theorem opsP0_writes : (opsP0 : List (HloOp τ sig (Elt F))).Forall fun op => op.writes ⊆ (opsP0_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide)⟩
/-- A buffer that `opsP0` does not write keeps its contents through it. -/
theorem opsP0_keep (V : Valuation τ sig (Elt F)) (r : Ref sig .tc) (h : r ∉ opsP0_W) :
    after opsP0 V (Proc.devRef .tc r) = V (Proc.devRef .tc r) :=
  after_of_writes_sub opsP0 _ opsP0_writes h
theorem opsP0_fresh : (opsP0 : List (HloOp τ sig (Elt F))).Forall fun op => op.fresh = ∅ := by
  simp only [List.Forall]; repeat' constructor

/-- The buffers the operations of `opsP1` write. -/
abbrev opsP1_W : List (Ref sig .tc) := [main_cst, main_v7, main_cst_0, main_v8, main_v9, main_v10, main_cst_1, main_v11, main_v12, main_v13, main_cst_2, main_call0_v0, main_call0_v1, main_v14, main_c, main_v15, main_v16, main_c_3, main_v17, main_v18, main_v19, main_v20, main_v21, main_c_4, main_v22, main_v23, main_c_5, main_v24, main_v25, main_v26, main_v27, main_v28, main_v29]
theorem opsP1_writes : (opsP1 : List (HloOp τ sig (Elt F))).Forall fun op => op.writes ⊆ (opsP1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide)⟩
/-- A buffer that `opsP1` does not write keeps its contents through it. -/
theorem opsP1_keep (V : Valuation τ sig (Elt F)) (r : Ref sig .tc) (h : r ∉ opsP1_W) :
    after opsP1 V (Proc.devRef .tc r) = V (Proc.devRef .tc r) :=
  after_of_writes_sub opsP1 _ opsP1_writes h
theorem opsP1_fresh : (opsP1 : List (HloOp τ sig (Elt F))).Forall fun op => op.fresh = ∅ := by
  simp only [List.Forall]; repeat' constructor

/-- The buffers the preparation writes. -/
abbrev opsP_W : List (Ref sig .tc) := opsP0_W ++ opsP1_W
/-- A buffer that the preparation does not write keeps its contents through it. -/
theorem opsP_keep (V : Valuation τ sig (Elt F)) (r : Ref sig .tc) (h : r ∉ opsP_W) :
    after opsP V (Proc.devRef .tc r) = V (Proc.devRef .tc r) := by
  rw [after_append, opsP1_keep _ r fun h1 => h (List.mem_append_right _ h1),
    opsP0_keep _ r fun h0 => h (List.mem_append_left _ h0)]
theorem opsP_fresh : (opsP : List (HloOp τ sig (Elt F))).Forall fun op => op.fresh = ∅ :=
  List.forall_append.mpr ⟨opsP0_fresh, opsP1_fresh⟩

/-- The buffers the operations of `opsD1` write. -/
abbrev opsD1_W : List (Ref sig .tc) := [main_v30]
theorem opsD1_writes : (opsD1 : List (HloOp τ sig (Elt F))).Forall fun op => op.writes ⊆ (opsD1_W.map (Proc.devRef (τ := τ) .tc)).toFinset := by
  simp only [List.Forall]
  exact (by simp only [nullary_writes, unary_writes, binary_writes, ternary_writes, reshape_writes, Finset.singleton_subset_iff, List.mem_toFinset]; exact List.mem_map_of_mem (by decide))
/-- A buffer that `opsD1` does not write keeps its contents through it. -/
theorem opsD1_keep (V : Valuation τ sig (Elt F)) (r : Ref sig .tc) (h : r ∉ opsD1_W) :
    after opsD1 V (Proc.devRef .tc r) = V (Proc.devRef .tc r) :=
  after_of_writes_sub opsD1 _ opsD1_writes h
theorem opsD1_fresh : (opsD1 : List (HloOp τ sig (Elt F))).Forall fun op => op.fresh = ∅ := by
  simp only [List.Forall]; repeat' constructor

/-- The buffers the operations of `opsM1` write. -/
abbrev opsM1_W : List (Ref sig .tc) := [main_c_6, main_v31, main_v32, main_c_7, main_v33, main_v34, main_v35, main_v36, main_v37, main_v38, main_v39, main_v40, main_cst_8, main_v41, main_v42, main_v43]
theorem opsM1_writes : (opsM1 : List (HloOp τ sig (Elt F))).Forall fun op => op.writes ⊆ (opsM1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide)⟩
/-- A buffer that `opsM1` does not write keeps its contents through it. -/
theorem opsM1_keep (V : Valuation τ sig (Elt F)) (r : Ref sig .tc) (h : r ∉ opsM1_W) :
    after opsM1 V (Proc.devRef .tc r) = V (Proc.devRef .tc r) :=
  after_of_writes_sub opsM1 _ opsM1_writes h
theorem opsM1_fresh : (opsM1 : List (HloOp τ sig (Elt F))).Forall fun op => op.fresh = ∅ := by
  simp only [List.Forall]; repeat' constructor

/-- The buffers the operations of `opsA1` write. -/
abbrev opsA1_W : List (Ref sig .tc) := [main_v44, main_v45, main_v46, main_cst_9, main_v47, main_v48, main_v49, main_v50, main_v51, main_v52]
theorem opsA1_writes : (opsA1 : List (HloOp τ sig (Elt F))).Forall fun op => op.writes ⊆ (opsA1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide)⟩
/-- A buffer that `opsA1` does not write keeps its contents through it. -/
theorem opsA1_keep (V : Valuation τ sig (Elt F)) (r : Ref sig .tc) (h : r ∉ opsA1_W) :
    after opsA1 V (Proc.devRef .tc r) = V (Proc.devRef .tc r) :=
  after_of_writes_sub opsA1 _ opsA1_writes h
theorem opsA1_fresh : (opsA1 : List (HloOp τ sig (Elt F))).Forall fun op => op.fresh = ∅ := by
  simp only [List.Forall]; repeat' constructor

/-- The buffers the operations of `opsD2` write. -/
abbrev opsD2_W : List (Ref sig .tc) := [main_v53]
theorem opsD2_writes : (opsD2 : List (HloOp τ sig (Elt F))).Forall fun op => op.writes ⊆ (opsD2_W.map (Proc.devRef (τ := τ) .tc)).toFinset := by
  simp only [List.Forall]
  exact (by simp only [nullary_writes, unary_writes, binary_writes, ternary_writes, reshape_writes, Finset.singleton_subset_iff, List.mem_toFinset]; exact List.mem_map_of_mem (by decide))
/-- A buffer that `opsD2` does not write keeps its contents through it. -/
theorem opsD2_keep (V : Valuation τ sig (Elt F)) (r : Ref sig .tc) (h : r ∉ opsD2_W) :
    after opsD2 V (Proc.devRef .tc r) = V (Proc.devRef .tc r) :=
  after_of_writes_sub opsD2 _ opsD2_writes h
theorem opsD2_fresh : (opsD2 : List (HloOp τ sig (Elt F))).Forall fun op => op.fresh = ∅ := by
  simp only [List.Forall]; repeat' constructor

/-- The buffers the operations of `opsM2` write. -/
abbrev opsM2_W : List (Ref sig .tc) := [main_c_10, main_v54, main_v55, main_c_11, main_v56, main_v57, main_v58, main_v59, main_v60, main_v61, main_v62, main_v63, main_cst_12, main_v64, main_v65, main_v66]
theorem opsM2_writes : (opsM2 : List (HloOp τ sig (Elt F))).Forall fun op => op.writes ⊆ (opsM2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide)⟩
/-- A buffer that `opsM2` does not write keeps its contents through it. -/
theorem opsM2_keep (V : Valuation τ sig (Elt F)) (r : Ref sig .tc) (h : r ∉ opsM2_W) :
    after opsM2 V (Proc.devRef .tc r) = V (Proc.devRef .tc r) :=
  after_of_writes_sub opsM2 _ opsM2_writes h
theorem opsM2_fresh : (opsM2 : List (HloOp τ sig (Elt F))).Forall fun op => op.fresh = ∅ := by
  simp only [List.Forall]; repeat' constructor

/-- The buffers the operations of `opsA2` write. -/
abbrev opsA2_W : List (Ref sig .tc) := [main_v67, main_v68, main_v69, main_cst_13, main_v70, main_v71, main_v72, main_v73, main_v74, main_v75]
theorem opsA2_writes : (opsA2 : List (HloOp τ sig (Elt F))).Forall fun op => op.writes ⊆ (opsA2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide),
      by simp only [nullary_writes, unary_writes, binary_writes, ternary_writes, reshape_writes, Finset.singleton_subset_iff, List.mem_toFinset]; exact List.mem_map_of_mem (by decide)⟩
/-- A buffer that `opsA2` does not write keeps its contents through it. -/
theorem opsA2_keep (V : Valuation τ sig (Elt F)) (r : Ref sig .tc) (h : r ∉ opsA2_W) :
    after opsA2 V (Proc.devRef .tc r) = V (Proc.devRef .tc r) :=
  after_of_writes_sub opsA2 _ opsA2_writes h
theorem opsA2_fresh : (opsA2 : List (HloOp τ sig (Elt F))).Forall fun op => op.fresh = ∅ := by
  simp only [List.Forall]; repeat' constructor

/-! ### The whole line -/

theorem ops_sub : (ops : List (HloOp τ sig (Elt F))).Forall fun op => op.bufs ⊆ tcRefs τ sig :=
  List.forall_append.mpr ⟨opsP_sub, List.forall_append.mpr ⟨opsD1_sub, List.forall_append.mpr ⟨opsM1_sub, List.forall_append.mpr ⟨opsA1_sub, List.forall_append.mpr ⟨opsD2_sub, List.forall_append.mpr ⟨opsM2_sub, opsA2_sub⟩⟩⟩⟩⟩⟩

theorem ops_fresh : ∀ op ∈ (ops : List (HloOp τ sig (Elt F))), op.fresh = ∅ :=
  List.forall_iff_forall_mem.mp (List.forall_append.mpr ⟨opsP_fresh, List.forall_append.mpr ⟨opsD1_fresh, List.forall_append.mpr ⟨opsM1_fresh, List.forall_append.mpr ⟨opsA1_fresh, List.forall_append.mpr ⟨opsD2_fresh, List.forall_append.mpr ⟨opsM2_fresh, opsA2_fresh⟩⟩⟩⟩⟩⟩)

/-- An argument of the function is written by no operation of the line: it keeps its launch contents. -/
theorem ops_keep_arg (V : Valuation τ sig (Elt F)) (r : Ref sig .tc)
    (h : r ∈ ([main_arg0, main_arg1, main_arg2, main_arg3, main_arg4, main_arg5, main_arg6] : List (Ref sig .tc))) :
    after ops V (Proc.devRef .tc r) = V (Proc.devRef .tc r) := by
  have hP : r ∉ (opsP_W : List (Ref sig .tc)) := by revert r; decide
  have hD1 : r ∉ (opsD1_W : List (Ref sig .tc)) := by revert r; decide
  have hM1 : r ∉ (opsM1_W : List (Ref sig .tc)) := by revert r; decide
  have hA1 : r ∉ (opsA1_W : List (Ref sig .tc)) := by revert r; decide
  have hD2 : r ∉ (opsD2_W : List (Ref sig .tc)) := by revert r; decide
  have hM2 : r ∉ (opsM2_W : List (Ref sig .tc)) := by revert r; decide
  have hA2 : r ∉ (opsA2_W : List (Ref sig .tc)) := by revert r; decide
  simp only [ops, after_append]
  rw [opsA2_keep _ r hA2, opsM2_keep _ r hM2, opsD2_keep _ r hD2, opsA1_keep _ r hA1, opsM1_keep _ r hM1,
    opsD1_keep _ r hD1]
  exact (congrFun (after_append opsP0 opsP1 V) (Proc.devRef .tc r)).symm.trans (opsP_keep V r hP)

/-- On every device, for any float values, from any memory with zero counters: every weakly fair execution of
    the function terminates with the result buffer at what the fold of the line over the launch contents leaves
    there, and every argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v75) = after ops (launchContents m c) (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨h c main_v75,
      (h c main_arg0).trans (ops_keep_arg (launchContents m c) main_arg0 (by decide)),
      (h c main_arg1).trans (ops_keep_arg (launchContents m c) main_arg1 (by decide)),
      (h c main_arg2).trans (ops_keep_arg (launchContents m c) main_arg2 (by decide)),
      (h c main_arg3).trans (ops_keep_arg (launchContents m c) main_arg3 (by decide)),
      (h c main_arg4).trans (ops_keep_arg (launchContents m c) main_arg4 (by decide)),
      (h c main_arg5).trans (ops_keep_arg (launchContents m c) main_arg5 (by decide)),
      (h c main_arg6).trans (ops_keep_arg (launchContents m c) main_arg6 (by decide))⟩)
    (run_seq scopedRefs_eq scopedSems_eq defs main (fun _ => ops) main_eq (fun _ => ops_sub) m ρ (fun _ => ops_fresh))

end Cert.ReferenceIdeal.RefRun

end
-- ==== Proof.RefValue.lean ====
/-
What the reference function computes, stage by stage, at the ideal values (extended reals, no rounding).

The reference is a straight line of whole-array operations. Read in order it

  * prepares the graph: the two rows of the edge array with one self-loop per node appended (the sources and
    the targets of the messages), and the weight of every message, the product of degree^(−1/2) at its two ends
    (zero where the degree is not positive);
  * applies the first layer: the dense product of the features with the first weight matrix; the aggregation of
    its rows over the graph (rows gathered at the sources, scaled by the weights, summed at the targets); the
    first bias row and the per-channel leaky rectifier;
  * applies the second layer likewise, with the second weight matrix and bias row and the same slopes.

Each stage is evaluated from an ARBITRARY assignment of contents to the buffers, as a named function of the few
buffers the stage reads: the dense product is `lin`, the bias-and-rectifier is `act`, the aggregation is `agg`,
the message sources, targets and weights are `src`, `dst` and `nrmOf`. A stage leaves every buffer it does not
write as it found it. Chaining the stages from the launch contents gives the result buffer as the two-layer
network `gcn` of the seven argument arrays.
-/
import proofs.«152368_j89292370084351_1_alg».proof.Proof.RefRun
import proofs.«152368_j89292370084351_1_alg».proof.Proof.Chain
import proofs.«152368_j89292370084351_1_alg».proof.Proof.Spec
import Idealize.ShloMosaic.PureOps.Ideal.Laws
import Idealize.ShloMosaic.Lib.ValueIdx
import Idealize.ShloMosaic.Lib.Pipeline.Value
import Idealize.ShloMosaic.Lib.StackMember

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx
open Cert.ReferenceIdeal.RefRun

/-! ### The dense product -/

/-- A plain dense product on the host, at the ideal values, is `lin`: entry (p, o) is ∑ₖ x(p, k) · w(k, o). -/
theorem dot_eq_lin {N K O : Nat} (d : DotDims ⟨2, ![N, K]⟩ ⟨2, ![K, O]⟩ ⟨2, ![N, O]⟩) (hd : d = DotDims.plain N K O)
    (x : FVec Ideal ⟨2, ![N, K]⟩ .f32) (w : FVec Ideal ⟨2, ![K, O]⟩ .f32) :
    Host.dotGeneral d none x w = Cert.Spec.lin x w := by
  subst hd
  funext i
  rw [eq_ix2 i]
  exact StackMember.dotGeneral_plain_apply none x w (i 0) (i 1)

set_option maxHeartbeats 400000 in
/-- The first layer's product: features times first weights. -/
theorem stageD1 (R : Valuation τ sig (Elt Ideal)) :
    after (opsD1 (F := Ideal)) R (Proc.devRef .tc main_v30)
      = Cert.Spec.lin (N := 100000) (K := 128) (O := 64) (R (Proc.devRef .tc main_arg0)) (R (Proc.devRef .tc main_arg2)) := by
  after_results
  exact dot_eq_lin _ rfl _ _

set_option maxHeartbeats 400000 in
/-- The second layer's product: the first layer's output times the second weights. -/
theorem stageD2 (R : Valuation τ sig (Elt Ideal)) :
    after (opsD2 (F := Ideal)) R (Proc.devRef .tc main_v53)
      = Cert.Spec.lin (N := 100000) (K := 64) (O := 64) (R (Proc.devRef .tc main_v52)) (R (Proc.devRef .tc main_arg4)) := by
  after_results
  exact dot_eq_lin _ rfl _ _

/-! ### The activation -/

/-- A vector over the channels laid along one row, and that row repeated, is `rows`. -/
theorem bcast_rows (v : FVec Ideal S64 .f32) :
    broadcastInDim S100000x64 ![0, 1] bcast_S1x64_S100000x64_0_1 (broadcastInDim S1x64 ![1] bcast_S64_S1x64_1 v)
      = Cert.Spec.rows (N := 100000) (O := 64) v := by
  funext i
  refine (broadcastInDim_apply (s := S1x64) (t := S100000x64) ![0, 1] bcast_S1x64_S100000x64_0_1 _ i
    (ix2 (0 : Fin 1) (i 1)) ?_).trans
      ((broadcastInDim_apply (s := S64) (t := S1x64) ![1] bcast_S64_S1x64_1 v (ix2 (0 : Fin 1) (i 1)) (ix1 (i 1)) ?_).trans ?_)
  · intro a
    match a with
    | ⟨0, _⟩ => rfl
    | ⟨1, _⟩ => rfl
  · intro a
    match a with
    | ⟨0, _⟩ => rfl
  · rfl

/-- The scalar zero repeated over the array is the array's zero splat. -/
theorem bcast_zero :
    broadcastInDim S100000x64 ![] bcast_S_S100000x64 (constant (F := Ideal) S_ .f32 0x00000000#32)
      = constant ⟨2, ![100000, 64]⟩ .f32 0x00000000#32 := by
  funext i; rfl

/-- Bias row added, the non-negative entries kept and the others multiplied by the slope row: `act`. -/
theorem act_eq (a : FVec Ideal S100000x64 .f32) (b α : FVec Ideal S64 .f32) :
    select
        (cmpf .oge
          (addf a (broadcastInDim S100000x64 ![0, 1] bcast_S1x64_S100000x64_0_1 (broadcastInDim S1x64 ![1] bcast_S64_S1x64_1 b)))
          (broadcastInDim S100000x64 ![] bcast_S_S100000x64 (constant (F := Ideal) S_ .f32 0x00000000#32)))
        (addf a (broadcastInDim S100000x64 ![0, 1] bcast_S1x64_S100000x64_0_1 (broadcastInDim S1x64 ![1] bcast_S64_S1x64_1 b)))
        (mulf (broadcastInDim S100000x64 ![0, 1] bcast_S1x64_S100000x64_0_1 (broadcastInDim S1x64 ![1] bcast_S64_S1x64_1 α))
          (addf a (broadcastInDim S100000x64 ![0, 1] bcast_S1x64_S100000x64_0_1 (broadcastInDim S1x64 ![1] bcast_S64_S1x64_1 b))))
      = Cert.Spec.act (N := 100000) (O := 64) a b α := by
  rw [bcast_rows, bcast_rows, bcast_zero]
  rfl

set_option maxHeartbeats 400000 in
/-- The first layer's activation. -/
theorem stageA1 (R : Valuation τ sig (Elt Ideal)) :
    after (opsA1 (F := Ideal)) R (Proc.devRef .tc main_v52)
      = Cert.Spec.act (N := 100000) (O := 64) (R (Proc.devRef .tc main_v43)) (R (Proc.devRef .tc main_arg3)) (R (Proc.devRef .tc main_arg6)) := by
  after_results
  exact act_eq _ _ _

set_option maxHeartbeats 400000 in
/-- The second layer's activation. -/
theorem stageA2 (R : Valuation τ sig (Elt Ideal)) :
    after (opsA2 (F := Ideal)) R (Proc.devRef .tc main_v75)
      = Cert.Spec.act (N := 100000) (O := 64) (R (Proc.devRef .tc main_v66)) (R (Proc.devRef .tc main_arg5)) (R (Proc.devRef .tc main_arg6)) := by
  after_results
  exact act_eq _ _ _

/-! ### The aggregation -/

set_option maxHeartbeats 400000 in
/-- The first layer's aggregation over the graph. -/
theorem stageM1 (R : Valuation τ sig (Elt Ideal)) :
    after (opsM1 (F := Ideal)) R (Proc.devRef .tc main_v43)
      = Cert.KernelIdeal.Chain.agg (F := Ideal) (R (Proc.devRef .tc main_v30)) (R (Proc.devRef .tc main_v5))
          (R (Proc.devRef .tc main_v6)) (R (Proc.devRef .tc main_v29)) := by
  after_results_simp
  unfold Cert.KernelIdeal.Chain.agg Cert.KernelIdeal.Chain.wrap
  rfl

set_option maxHeartbeats 400000 in
/-- The second layer's aggregation over the graph. -/
theorem stageM2 (R : Valuation τ sig (Elt Ideal)) :
    after (opsM2 (F := Ideal)) R (Proc.devRef .tc main_v66)
      = Cert.KernelIdeal.Chain.agg (F := Ideal) (R (Proc.devRef .tc main_v53)) (R (Proc.devRef .tc main_v5))
          (R (Proc.devRef .tc main_v6)) (R (Proc.devRef .tc main_v29)) := by
  after_results_simp
  unfold Cert.KernelIdeal.Chain.agg Cert.KernelIdeal.Chain.wrap
  rfl

/-! ### The preparation -/

/-- Two pieces joined end to end depend only on the pieces. -/
theorem concat2_congr {α : Type} {a a' : S1600000.Idx → α} {b b' : S100000.Idx → α} (ha : a = a') (hb : b = b')
    (h : Shape.Concatenates [S1600000, S100000] S1700000 0) :
    concatenate S1700000 0 [⟨S1600000, a⟩, ⟨S100000, b⟩] h = concatenate S1700000 0 [⟨S1600000, a'⟩, ⟨S100000, b'⟩] h := by
  subst ha hb; rfl

set_option maxHeartbeats 400000 in
/-- The messages' sources: the edge array's first row, then the self-loops. -/
theorem stageP0_src (R : Valuation τ sig (Elt Ideal)) :
    after (opsP0 (F := Ideal)) R (Proc.devRef .tc main_v5) = Cert.KernelIdeal.Chain.src (R (Proc.devRef .tc main_arg1)) := by
  after_results_simp
  unfold Cert.KernelIdeal.Chain.src
  refine concat2_congr ?_ ?_ _
  · after_results_simp
    rfl
  · after_results_simp

set_option maxHeartbeats 400000 in
/-- The messages' targets: the edge array's second row, then the self-loops. -/
theorem stageP0_dst (R : Valuation τ sig (Elt Ideal)) :
    after (opsP0 (F := Ideal)) R (Proc.devRef .tc main_v6) = Cert.KernelIdeal.Chain.dst (R (Proc.devRef .tc main_arg1)) := by
  after_results_simp
  unfold Cert.KernelIdeal.Chain.dst
  refine concat2_congr ?_ ?_ _
  · after_results_simp
    rfl
  · after_results_simp

/-! The normalisation in three stretches: the degree with its comparison against zero and its inverse square root;
    the choice between the inverse square root and zero; the two reads at the messages' ends and their product. -/

section Cut
variable {F : FTy → Type} [FloatOps F]

/-- The degree (ones scatter-added at the targets), whether it is positive, its inverse square root, and the scalar zero. -/
abbrev normDeg : List (HloOp τ sig (Elt F)) :=
  [ nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- Zero repeated over the nodes, and the choice: the inverse square root where the degree is positive, zero elsewhere. -/
abbrev normPick : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- The two ends of every message wrapped into range, the chosen quantity read at each, and the product of the two reads. -/
abbrev normEnds : List (HloOp τ sig (Elt F)) :=
  [ nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v5 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v5 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v5 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]

theorem opsP1_cut : (opsP1 (F := F)) = normDeg ++ (normPick ++ normEnds) := rfl

end Cut

set_option maxHeartbeats 400000 in
theorem normDeg_pos (U : Valuation τ sig (Elt Ideal)) :
    after (normDeg (F := Ideal)) U (Proc.devRef .tc main_v12)
      = cmpf .ogt (Cert.KernelIdeal.Chain.degOf (F := Ideal) (U (Proc.devRef .tc main_v6)))
          (broadcastInDim S100000 ![] bcast_S_S100000 (constant S_ .f32 0x00000000#32)) := by
  after_results_simp
  unfold Cert.KernelIdeal.Chain.degOf
  rfl

set_option maxHeartbeats 400000 in
theorem normDeg_rsqrt (U : Valuation τ sig (Elt Ideal)) :
    after (normDeg (F := Ideal)) U (Proc.devRef .tc main_v13)
      = Host.rsqrt (Cert.KernelIdeal.Chain.degOf (F := Ideal) (U (Proc.devRef .tc main_v6))) := by
  after_results_simp
  unfold Cert.KernelIdeal.Chain.degOf
  rfl

set_option maxHeartbeats 400000 in
theorem normDeg_zero (U : Valuation τ sig (Elt Ideal)) :
    after (normDeg (F := Ideal)) U (Proc.devRef .tc main_cst_2) = constant (F := Ideal) S_ .f32 0x00000000#32 := by
  after_results_simp

set_option maxHeartbeats 400000 in
theorem normDeg_src (U : Valuation τ sig (Elt Ideal)) :
    after (normDeg (F := Ideal)) U (Proc.devRef .tc main_v5) = U (Proc.devRef .tc main_v5) := by
  after_results_simp

set_option maxHeartbeats 400000 in
theorem normDeg_dst (U : Valuation τ sig (Elt Ideal)) :
    after (normDeg (F := Ideal)) U (Proc.devRef .tc main_v6) = U (Proc.devRef .tc main_v6) := by
  after_results_simp

set_option maxHeartbeats 400000 in
theorem normPick_val (X : Valuation τ sig (Elt Ideal)) :
    after (normPick (F := Ideal)) X (Proc.devRef .tc main_v14)
      = select (X (Proc.devRef .tc main_v12) : IVec S100000 1) (X (Proc.devRef .tc main_v13) : FVec Ideal S100000 .f32)
          (broadcastInDim S100000 ![] bcast_S_S100000 (id (X (Proc.devRef .tc main_cst_2) : FVec Ideal S_ .f32))) := by
  after_results_simp
  rfl

set_option maxHeartbeats 400000 in
theorem normPick_src (X : Valuation τ sig (Elt Ideal)) :
    after (normPick (F := Ideal)) X (Proc.devRef .tc main_v5) = X (Proc.devRef .tc main_v5) := by
  after_results_simp

set_option maxHeartbeats 400000 in
theorem normPick_dst (X : Valuation τ sig (Elt Ideal)) :
    after (normPick (F := Ideal)) X (Proc.devRef .tc main_v6) = X (Proc.devRef .tc main_v6) := by
  after_results_simp

set_option maxHeartbeats 400000 in
theorem normEnds_val (Y : Valuation τ sig (Elt Ideal)) :
    after (normEnds (F := Ideal)) Y (Proc.devRef .tc main_v29)
      = (mulf
          (Host.gather gather_S100000_S1700000x1_S1700000_n_0_n_n_0_1_1 (Y (Proc.devRef .tc main_v14) : FVec Ideal S100000 .f32)
            (Cert.KernelIdeal.Chain.wrap (Y (Proc.devRef .tc main_v5))))
          (Host.gather gather_S100000_S1700000x1_S1700000_n_0_n_n_0_1_1 (Y (Proc.devRef .tc main_v14) : FVec Ideal S100000 .f32)
            (Cert.KernelIdeal.Chain.wrap (Y (Proc.devRef .tc main_v6)))) : FVec Ideal S1700000 .f32) := by
  after_results_simp
  unfold Cert.KernelIdeal.Chain.wrap
  rfl

set_option maxHeartbeats 400000 in
/-- The messages' weights, from whatever the source and target buffers hold. -/
theorem stageP1 (U : Valuation τ sig (Elt Ideal)) :
    after (opsP1 (F := Ideal)) U (Proc.devRef .tc main_v29)
      = Cert.KernelIdeal.Chain.nrmOf (F := Ideal) (U (Proc.devRef .tc main_v5)) (U (Proc.devRef .tc main_v6)) := by
  rw [opsP1_cut, after_append, after_append]
  rw [normEnds_val, normPick_val, normPick_src, normPick_dst, normDeg_pos, normDeg_rsqrt, normDeg_zero, normDeg_src, normDeg_dst]
  rfl

/-! ### The whole line -/

set_option maxHeartbeats 1000000 in
/-- From any contents `V`, the line leaves in the result buffer the two-layer network of the seven argument buffers' contents. -/
theorem value_of (V : Valuation τ sig (Elt Ideal)) :
    after (ops (F := Ideal)) V (Proc.devRef .tc main_v75)
      = Cert.KernelIdeal.Chain.gcn (V (Proc.devRef .tc main_arg0)) (V (Proc.devRef .tc main_arg1)) (V (Proc.devRef .tc main_arg2))
          (V (Proc.devRef .tc main_arg3)) (V (Proc.devRef .tc main_arg4)) (V (Proc.devRef .tc main_arg5)) (V (Proc.devRef .tc main_arg6)) := by
  have e : after (ops (F := Ideal)) V
      = after opsA2 (after opsM2 (after opsD2 (after opsA1 (after opsM1 (after opsD1 (after opsP1 (after opsP0 V))))))) := by
    simp only [ops, after_append]
  rw [e]
  -- the second layer, from the last stage backwards
  rw [stageA2]
  rw [stageM2, opsM2_keep _ main_arg5 (by decide), opsM2_keep _ main_arg6 (by decide)]
  rw [stageD2, opsD2_keep _ main_v5 (by decide), opsD2_keep _ main_v6 (by decide), opsD2_keep _ main_v29 (by decide), opsD2_keep _ main_arg5 (by decide), opsD2_keep _ main_arg6 (by decide)]
  -- the first layer
  rw [stageA1, opsA1_keep _ main_arg4 (by decide), opsA1_keep _ main_v5 (by decide), opsA1_keep _ main_v6 (by decide), opsA1_keep _ main_v29 (by decide), opsA1_keep _ main_arg5 (by decide), opsA1_keep _ main_arg6 (by decide)]
  rw [stageM1, opsM1_keep _ main_arg3 (by decide), opsM1_keep _ main_arg6 (by decide), opsM1_keep _ main_arg4 (by decide), opsM1_keep _ main_v5 (by decide), opsM1_keep _ main_v6 (by decide), opsM1_keep _ main_v29 (by decide), opsM1_keep _ main_arg5 (by decide)]
  rw [stageD1, opsD1_keep _ main_v5 (by decide), opsD1_keep _ main_v6 (by decide), opsD1_keep _ main_v29 (by decide), opsD1_keep _ main_arg3 (by decide), opsD1_keep _ main_arg6 (by decide), opsD1_keep _ main_arg4 (by decide), opsD1_keep _ main_arg5 (by decide)]
  -- the preparation
  rw [stageP1, opsP1_keep _ main_v5 (by decide), opsP1_keep _ main_v6 (by decide), opsP1_keep _ main_arg0 (by decide), opsP1_keep _ main_arg2 (by decide), opsP1_keep _ main_arg3 (by decide), opsP1_keep _ main_arg6 (by decide), opsP1_keep _ main_arg4 (by decide), opsP1_keep _ main_arg5 (by decide)]
  rw [stageP0_src, stageP0_dst, opsP0_keep _ main_arg0 (by decide), opsP0_keep _ main_arg2 (by decide), opsP0_keep _ main_arg3 (by decide), opsP0_keep _ main_arg6 (by decide), opsP0_keep _ main_arg4 (by decide), opsP0_keep _ main_arg5 (by decide)]
  unfold Cert.KernelIdeal.Chain.gcn Cert.KernelIdeal.Chain.nrm
  rfl

/-- On device `c`, from the launch memory `m`: the line leaves the two-layer network of the seven arguments in the
    result buffer. -/
theorem value (m : (ℓ : Loc nD τ sig) → Buf (Elt Ideal) ℓ) (c : Dev nD) :
    after (RefRun.ops (F := Ideal)) (launchContents m c) (Proc.devRef .tc main_v75)
      = Cert.KernelIdeal.Chain.gcn (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) :=
  value_of (launchContents m c)

end Cert.ReferenceIdeal.RefValue

end
-- ==== Proof.lean ====
/-
  A two-layer graph convolution, computed two ways, gives one result over the extended reals.

  Both programs take node features x (100000×128), an edge list e (2×1600000), two weight matrices, two bias vectors
  and a per-channel slope α, and compute, layer by layer,
      h ↦ act (agg (lin h W)) b α :
  `lin` the dense product with the layer's weights; `agg` the aggregation over the graph — the rows gathered by each
  message's source node, scaled by the message's weight deg(source)^(−1/2) · deg(target)^(−1/2) (self-loops added,
  a node of degree zero weighted zero) and summed into the target node's row; `act` the bias followed by the leaky
  rectifier with slope α. The reference computes each step on whole arrays. The kernel program computes `lin` and `act`
  in pallas_calls over ten blocks of ten thousand rows (its products on operands narrowed to bf16, which at the ideal
  values changes nothing), and the aggregation with the very same array operations as the reference.

  At the ideal values a block of the product is the product of the block's rows — entry by entry the same sum over the
  contraction index —, and a block of `act` is `act` of the block's rows; the blocks tile the array. So each program's
  result is the one function `Chain.gcn` of the seven arguments, and no law of arithmetic is needed beyond that: the
  inputs' finiteness is never used.

  The three programs run, without a fault, with their arguments unchanged (the frames); the idealized kernel program is
  the kernel program's own text read at the ideal values, no operation rewritten.
-/
import proofs.«152368_j89292370084351_1_alg».proof.Defs
import proofs.«152368_j89292370084351_1_alg».proof.Proof.Gen.Kernel
import proofs.«152368_j89292370084351_1_alg».proof.Proof.Gen.Kernel.Skeleton
import proofs.«152368_j89292370084351_1_alg».proof.Proof.Gen.Kernel.Launch
import proofs.«152368_j89292370084351_1_alg».proof.Proof.Gen.Kernel.Points
import proofs.«152368_j89292370084351_1_alg».proof.Proof.Gen.Kernel.Frame
import proofs.«152368_j89292370084351_1_alg».proof.Proof.Gen.KernelIdeal
import proofs.«152368_j89292370084351_1_alg».proof.Proof.Gen.KernelIdeal.Skeleton
import proofs.«152368_j89292370084351_1_alg».proof.Proof.Gen.KernelIdeal.Launch
import proofs.«152368_j89292370084351_1_alg».proof.Proof.Gen.KernelIdeal.Points
import proofs.«152368_j89292370084351_1_alg».proof.Proof.Gen.KernelIdeal.Frame
import proofs.«152368_j89292370084351_1_alg».proof.Proof.Gen.ReferenceIdeal
import proofs.«152368_j89292370084351_1_alg».proof.Proof.Gen.Pre_finite_inputs
import proofs.«152368_j89292370084351_1_alg».proof.Proof.KRun
import proofs.«152368_j89292370084351_1_alg».proof.Proof.KWalk
import proofs.«152368_j89292370084351_1_alg».proof.Proof.LinBlocks
import proofs.«152368_j89292370084351_1_alg».proof.Proof.ActBlocks
import proofs.«152368_j89292370084351_1_alg».proof.Proof.RefRun
import proofs.«152368_j89292370084351_1_alg».proof.Proof.RefValue
import Idealize.ShloMosaic.Adequacy
import Idealize.ShloMosaic.Init

noncomputable section

namespace Cert.Proof

open Idealize.ShloMosaic Idealize.ShloMosaic.TcCoe Idealize.SL.Sem

/-- The kernel program runs and leaves its arguments as they were. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- The reference is a straight line of array operations: it runs, and none of them writes an argument. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- Both programs end with the result array at `Chain.gcn` of the arguments: the kernel program by its four calls'
    values carried through its segments, the reference by its operations evaluated in order; the arguments agree. -/
theorem algebraic : Cert.algebraic_KernelIdeal_ReferenceIdeal := by
  intro m ρ m' ρ' _ hagree
  refine ⟨fun c => Cert.KernelIdeal.Chain.gcn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KValue.kernel_value m ρ c Cert.KernelIdeal.Blocks.lin0
          Cert.KernelIdeal.Blocks.act1 Cert.KernelIdeal.Blocks.lin2 Cert.KernelIdeal.Blocks.act3), (h c).2⟩)
      (Cert.KernelIdeal.Result.run_result (F := Ideal) m ρ)
  · refine (θ_run Cert.ReferenceIdeal.defs _ _).mono (fun r h c => ⟨(h c).1.trans ?_, (h c).2⟩)
      (Cert.ReferenceIdeal.RefRun.run (F := Ideal) m' ρ')
    rw [Cert.ReferenceIdeal.RefValue.value m' c, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
